-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x8192 : Shape := ⟨2, ![9, 8192]⟩
abbrev S8192x4096 : Shape := ⟨2, ![8192, 4096]⟩
abbrev S_ : Shape := ⟨0, ![]⟩

class Facts : Prop where
  bcast_S_S9x8192 : S_.BroadcastsInDim S9x8192 (![] : Fin 0 → Fin S9x8192.rank)
  reducesTo_S9x8192_S_d0_1 : S9x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S9x8192 .f32) (main_arg1 : FVec F S8192x4096 .f32) : IVec S_ 1 :=
  let main_v0 : FVec F S9x8192 .f32 := Host.absf main_arg0
  let main_cst : FVec F S_ .f32 := constant S_ .f32 0x7F800000#32
  let main_v1 : FVec F S9x8192 .f32 := broadcastInDim S9x8192 ![] bcast_S_S9x8192 main_cst
  let main_v2 : IVec S9x8192 1 := cmpf .olt main_v0 main_v1
  let main_c : IVec S_ 1 := constantI S_ 1 1#1
  let main_v3 : IVec S_ 1 := (fun x v => Host.reduce IntOp.andi x v reducesTo_S9x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S9x8192 : Shape := ⟨2, ![9, 8192]⟩
abbrev S8192x4096 : Shape := ⟨2, ![8192, 4096]⟩
abbrev S8192x9 : Shape := ⟨2, ![8192, 9]⟩
abbrev S_ : Shape := ⟨0, ![]⟩
abbrev S8448x9 : Shape := ⟨2, ![8448, 9]⟩
abbrev S8192x128 : Shape := ⟨2, ![8192, 128]⟩
abbrev S128x128 : Shape := ⟨2, ![128, 128]⟩
abbrev S8448x128 : Shape := ⟨2, ![8448, 128]⟩
abbrev S8192x1 : Shape := ⟨2, ![8192, 1]⟩

abbrev nBuf : Space → Nat
  | .hbm => 7
  | .vmem => 5
  | .smem => 0
  | _ => 0

abbrev bufTy : (tb : Table) → Fin (tcTables nBuf tb) → BufTy
  | .hbm, ⟨0, _⟩ => ⟨S9x8192, .f32⟩
  | .hbm, ⟨1, _⟩ => ⟨S8192x4096, .f32⟩
  | .hbm, ⟨2, _⟩ => ⟨S8192x9, .f32⟩
  | .hbm, ⟨3, _⟩ => ⟨S_, .i32⟩
  | .hbm, ⟨4, _⟩ => ⟨S_, .f32⟩
  | .hbm, ⟨5, _⟩ => ⟨S8448x9, .f32⟩
  | .hbm, ⟨6, _⟩ => ⟨S8192x4096, .f32⟩
  | .local _ .vmem, ⟨0, _⟩ => ⟨S8448x9, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | _, _ => ⟨S9x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8448x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S9x8192_S8192x9_1_0 : S9x8192.Transposes [1, 0] S8192x9
  pads_S8192x9_S8448x9_1281280_000 : S8192x9.Pads (![128, 0] : Fin 2 → Nat) ![128, 0] ![0, 0] S8448x9
  h_S_ : 0 < S_.numel
  inb_S8192x128_S8192x128_0_0 : ∀ a, (![0, 0] : Fin 2 → Nat) a + S8192x128.size a ≤ S8192x128.size a
  h_S8192x128 : 0 < S8192x128.numel
  concatenates_S128x128_S8192x128_S128x128_S8448x128_d0 : Shape.Concatenates [S128x128, S8192x128, S128x128] S8448x128 0
  inb_S8448x9_S8192x1_0_0 : ∀ a, (![0, 0] : Fin 2 → Nat) a + S8192x1.size a ≤ S8448x9.size a
  h_S8192x1 : 0 < S8192x1.numel
  shapeCasts_S8192x1_S8192x1 : S8192x1.ShapeCasts S8192x1
  slices_S8448x128_o0_0_S8192x128 : S8448x128.Slices ![0, 0] S8192x128
  broadcasts_S8192x1_S8192x128 : S8192x1.Broadcasts S8192x128
  inb_S8448x9_S8192x1_64_1 : ∀ a, (![64, 1] : Fin 2 → Nat) a + S8192x1.size a ≤ S8448x9.size a
  slices_S8448x128_o64_0_S8192x128 : S8448x128.Slices ![64, 0] S8192x128
  inb_S8448x9_S8192x1_120_2 : ∀ a, (![120, 2] : Fin 2 → Nat) a + S8192x1.size a ≤ S8448x9.size a
  slices_S8448x128_o120_0_S8192x128 : S8448x128.Slices ![120, 0] S8192x128
  inb_S8448x9_S8192x1_127_3 : ∀ a, (![127, 3] : Fin 2 → Nat) a + S8192x1.size a ≤ S8448x9.size a
  slices_S8448x128_o127_0_S8192x128 : S8448x128.Slices ![127, 0] S8192x128
  inb_S8448x9_S8192x1_128_4 : ∀ a, (![128, 4] : Fin 2 → Nat) a + S8192x1.size a ≤ S8448x9.size a
  slices_S8448x128_o128_0_S8192x128 : S8448x128.Slices ![128, 0] S8192x128
  inb_S8448x9_S8192x1_129_5 : ∀ a, (![129, 5] : Fin 2 → Nat) a + S8192x1.size a ≤ S8448x9.size a
  slices_S8448x128_o129_0_S8192x128 : S8448x128.Slices ![129, 0] S8192x128
  inb_S8448x9_S8192x1_136_6 : ∀ a, (![136, 6] : Fin 2 → Nat) a + S8192x1.size a ≤ S8448x9.size a
  slices_S8448x128_o136_0_S8192x128 : S8448x128.Slices ![136, 0] S8192x128
  inb_S8448x9_S8192x1_192_7 : ∀ a, (![192, 7] : Fin 2 → Nat) a + S8192x1.size a ≤ S8448x9.size a
  slices_S8448x128_o192_0_S8192x128 : S8448x128.Slices ![192, 0] S8192x128
  inb_S8448x9_S8192x1_256_8 : ∀ a, (![256, 8] : Fin 2 → Nat) a + S8192x1.size a ≤ S8448x9.size a
  slices_S8448x128_o256_0_S8192x128 : S8448x128.Slices ![256, 0] S8192x128
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8448x9.size a ≤ S8448x9.size a
  hwx0_0 : ∀ i : grid0.Coords, EltTy.bits .f32 = 32 ∨ (Rect.block (s := S8448x9) S8448x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x4096.size a
  hwx0_1 : ∀ i : grid0.Coords, EltTy.bits .f32 = 32 ∨ (Rect.block (s := S8192x4096) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x4096.size a
  hwx0_2 : ∀ i : grid0.Coords, EltTy.bits .f32 = 32 ∨ (Rect.block (s := S8192x4096) S8192x128.size (cc0_transform_2 i) (hinb0_2 i)).WholeWords (EltTy.packing .f32)

variable [Facts₀]

abbrev win0_0 : Pipeline.Window sig grid0 :=
  Pipeline.Window.ofSpec (Memref.whole main_v1) S8448x9.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S9x8192 : Shape := ⟨2, ![9, 8192]⟩
abbrev S8192x4096 : Shape := ⟨2, ![8192, 4096]⟩
abbrev S0 : Shape := ⟨1, ![0]⟩
abbrev S_ : Shape := ⟨0, ![]⟩
abbrev S1x8064 : Shape := ⟨2, ![1, 8064]⟩
abbrev S8064 : Shape := ⟨1, ![8064]⟩
abbrev S8064x1 : Shape := ⟨2, ![8064, 1]⟩
abbrev S8064x4096 : Shape := ⟨2, ![8064, 4096]⟩
abbrev S1 : Shape := ⟨1, ![1]⟩
abbrev S1x8128 : Shape := ⟨2, ![1, 8128]⟩
abbrev S8128 : Shape := ⟨1, ![8128]⟩
abbrev S8128x1 : Shape := ⟨2, ![8128, 1]⟩
abbrev S8128x4096 : Shape := ⟨2, ![8128, 4096]⟩
abbrev S1x8184 : Shape := ⟨2, ![1, 8184]⟩
abbrev S8184 : Shape := ⟨1, ![8184]⟩
abbrev S8184x1 : Shape := ⟨2, ![8184, 1]⟩
abbrev S8184x4096 : Shape := ⟨2, ![8184, 4096]⟩
abbrev S1x8191 : Shape := ⟨2, ![1, 8191]⟩
abbrev S8191 : Shape := ⟨1, ![8191]⟩
abbrev S8191x1 : Shape := ⟨2, ![8191, 1]⟩
abbrev S8191x4096 : Shape := ⟨2, ![8191, 4096]⟩
abbrev S1x8192 : Shape := ⟨2, ![1, 8192]⟩
abbrev S8192 : Shape := ⟨1, ![8192]⟩
abbrev S8192x1 : Shape := ⟨2, ![8192, 1]⟩

abbrev nBuf : Space → Nat
  | .hbm => 83
  | .vmem => 0
  | .smem => 0
  | _ => 0

abbrev bufTy : (tb : Table) → Fin (tcTables nBuf tb) → BufTy
  | .hbm, ⟨0, _⟩ => ⟨S9x8192, .f32⟩
  | .hbm, ⟨1, _⟩ => ⟨S8192x4096, .f32⟩
  | .hbm, ⟨2, _⟩ => ⟨S0, .i32⟩
  | .hbm, ⟨3, _⟩ => ⟨S_, .f32⟩
  | .hbm, ⟨4, _⟩ => ⟨S8192x4096, .f32⟩
  | .hbm, ⟨5, _⟩ => ⟨S1x8064, .f32⟩
  | .hbm, ⟨6, _⟩ => ⟨S8064, .f32⟩
  | .hbm, ⟨7, _⟩ => ⟨S8064x1, .f32⟩
  | .hbm, ⟨8, _⟩ => ⟨S8064x4096, .f32⟩
  | .hbm, ⟨9, _⟩ => ⟨S8064x4096, .f32⟩
  | .hbm, ⟨10, _⟩ => ⟨S8064x4096, .f32⟩
  | .hbm, ⟨11, _⟩ => ⟨S_, .i32⟩
  | .hbm, ⟨12, _⟩ => ⟨S1, .i32⟩
  | .hbm, ⟨13, _⟩ => ⟨S8192x4096, .f32⟩
  | .hbm, ⟨14, _⟩ => ⟨S1x8128, .f32⟩
  | .hbm, ⟨15, _⟩ => ⟨S8128, .f32⟩
  | .hbm, ⟨16, _⟩ => ⟨S8128x1, .f32⟩
  | .hbm, ⟨17, _⟩ => ⟨S8128x4096, .f32⟩
  | .hbm, ⟨18, _⟩ => ⟨S8128x4096, .f32⟩
  | .hbm, ⟨19, _⟩ => ⟨S8128x4096, .f32⟩
  | .hbm, ⟨20, _⟩ => ⟨S_, .i32⟩
  | .hbm, ⟨21, _⟩ => ⟨S1, .i32⟩
  | .hbm, ⟨22, _⟩ => ⟨S8192x4096, .f32⟩
  | .hbm, ⟨23, _⟩ => ⟨S1x8184, .f32⟩
  | .hbm, ⟨24, _⟩ => ⟨S8184, .f32⟩
  | .hbm, ⟨25, _⟩ => ⟨S8184x1, .f32⟩
  | .hbm, ⟨26, _⟩ => ⟨S8184x4096, .f32⟩
  | .hbm, ⟨27, _⟩ => ⟨S8184x4096, .f32⟩
  | .hbm, ⟨28, _⟩ => ⟨S8184x4096, .f32⟩
  | .hbm, ⟨29, _⟩ => ⟨S_, .i32⟩
  | .hbm, ⟨30, _⟩ => ⟨S1, .i32⟩
  | .hbm, ⟨31, _⟩ => ⟨S8192x4096, .f32⟩
  | .hbm, ⟨32, _⟩ => ⟨S1x8191, .f32⟩
  | .hbm, ⟨33, _⟩ => ⟨S8191, .f32⟩
  | .hbm, ⟨34, _⟩ => ⟨S8191x1, .f32⟩
  | .hbm, ⟨35, _⟩ => ⟨S8191x4096, .f32⟩
  | .hbm, ⟨36, _⟩ => ⟨S8191x4096, .f32⟩
  | .hbm, ⟨37, _⟩ => ⟨S8191x4096, .f32⟩
  | .hbm, ⟨38, _⟩ => ⟨S_, .i32⟩
  | .hbm, ⟨39, _⟩ => ⟨S1, .i32⟩
  | .hbm, ⟨40, _⟩ => ⟨S8192x4096, .f32⟩
  | .hbm, ⟨41, _⟩ => ⟨S1x8192, .f32⟩
  | .hbm, ⟨42, _⟩ => ⟨S8192, .f32⟩
  | .hbm, ⟨43, _⟩ => ⟨S8192x1, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S1x8191, .f32⟩
  | .hbm, ⟨48, _⟩ => ⟨S8191, .f32⟩
  | .hbm, ⟨49, _⟩ => ⟨S8191x1, .f32⟩
  | .hbm, ⟨50, _⟩ => ⟨S8191x4096, .f32⟩
  | .hbm, ⟨51, _⟩ => ⟨S8191x4096, .f32⟩
  | .hbm, ⟨52, _⟩ => ⟨S8191x4096, .f32⟩
  | .hbm, ⟨53, _⟩ => ⟨S_, .i32⟩
  | .hbm, ⟨54, _⟩ => ⟨S1, .i32⟩
  | .hbm, ⟨55, _⟩ => ⟨S8192x4096, .f32⟩
  | .hbm, ⟨56, _⟩ => ⟨S1x8184, .f32⟩
  | .hbm, ⟨57, _⟩ => ⟨S8184, .f32⟩
  | .hbm, ⟨58, _⟩ => ⟨S8184x1, .f32⟩
  | .hbm, ⟨59, _⟩ => ⟨S8184x4096, .f32⟩
  | .hbm, ⟨60, _⟩ => ⟨S8184x4096, .f32⟩
  | .hbm, ⟨61, _⟩ => ⟨S8184x4096, .f32⟩
  | .hbm, ⟨62, _⟩ => ⟨S_, .i32⟩
  | .hbm, ⟨63, _⟩ => ⟨S1, .i32⟩
  | .hbm, ⟨64, _⟩ => ⟨S8192x4096, .f32⟩
  | .hbm, ⟨65, _⟩ => ⟨S1x8128, .f32⟩
  | .hbm, ⟨66, _⟩ => ⟨S8128, .f32⟩
  | .hbm, ⟨67, _⟩ => ⟨S8128x1, .f32⟩
  | .hbm, ⟨68, _⟩ => ⟨S8128x4096, .f32⟩
  | .hbm, ⟨69, _⟩ => ⟨S8128x4096, .f32⟩
  | .hbm, ⟨70, _⟩ => ⟨S8128x4096, .f32⟩
  | .hbm, ⟨71, _⟩ => ⟨S_, .i32⟩
  | .hbm, ⟨72, _⟩ => ⟨S1, .i32⟩
  | .hbm, ⟨73, _⟩ => ⟨S8192x4096, .f32⟩
  | .hbm, ⟨74, _⟩ => ⟨S1x8064, .f32⟩
  | .hbm, ⟨75, _⟩ => ⟨S8064, .f32⟩
  | .hbm, ⟨76, _⟩ => ⟨S8064x1, .f32⟩
  | .hbm, ⟨77, _⟩ => ⟨S8064x4096, .f32⟩
  | .hbm, ⟨78, _⟩ => ⟨S8064x4096, .f32⟩
  | .hbm, ⟨79, _⟩ => ⟨S8064x4096, .f32⟩
  | .hbm, ⟨80, _⟩ => ⟨S_, .i32⟩
  | .hbm, ⟨81, _⟩ => ⟨S1, .i32⟩
  | .hbm, ⟨82, _⟩ => ⟨S8192x4096, .f32⟩
  | _, _ => ⟨S9x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c_7 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]

class Facts₀ : Prop where
  hz_S0 : S0.numel = 0
  bcast_S_S8192x4096 : S_.BroadcastsInDim S8192x4096 (![] : Fin 0 → Fin S8192x4096.rank)
  slices_S9x8192_S1x8064_0_0 : S9x8192.Slices ![0, 0] S1x8064
  shapeCasts_S1x8064_S8064 : S1x8064.ShapeCasts S8064
  bcast_S8064_S8064x1_0 : S8064.BroadcastsInDim S8064x1 (![0] : Fin 1 → Fin S8064x1.rank)
  slices_S8192x4096_S8064x4096_0_0 : S8192x4096.Slices ![0, 0] S8064x4096
  bcast_S8064x1_S8064x4096_0_1 : S8064x1.BroadcastsInDim S8064x4096 (![0, 1] : Fin 2 → Fin S8064x4096.rank)
  bcast_S_S1 : S_.BroadcastsInDim S1 (![] : Fin 0 → Fin S1.rank)
  slices_S9x8192_S1x8128_1_0 : S9x8192.Slices ![1, 0] S1x8128
  shapeCasts_S1x8128_S8128 : S1x8128.ShapeCasts S8128
  bcast_S8128_S8128x1_0 : S8128.BroadcastsInDim S8128x1 (![0] : Fin 1 → Fin S8128x1.rank)
  slices_S8192x4096_S8128x4096_0_0 : S8192x4096.Slices ![0, 0] S8128x4096
  bcast_S8128x1_S8128x4096_0_1 : S8128x1.BroadcastsInDim S8128x4096 (![0, 1] : Fin 2 → Fin S8128x4096.rank)
  slices_S9x8192_S1x8184_2_0 : S9x8192.Slices ![2, 0] S1x8184
  shapeCasts_S1x8184_S8184 : S1x8184.ShapeCasts S8184
  bcast_S8184_S8184x1_0 : S8184.BroadcastsInDim S8184x1 (![0] : Fin 1 → Fin S8184x1.rank)
  slices_S8192x4096_S8184x4096_0_0 : S8192x4096.Slices ![0, 0] S8184x4096
  bcast_S8184x1_S8184x4096_0_1 : S8184x1.BroadcastsInDim S8184x4096 (![0, 1] : Fin 2 → Fin S8184x4096.rank)
  slices_S9x8192_S1x8191_3_0 : S9x8192.Slices ![3, 0] S1x8191
  shapeCasts_S1x8191_S8191 : S1x8191.ShapeCasts S8191
  bcast_S8191_S8191x1_0 : S8191.BroadcastsInDim S8191x1 (![0] : Fin 1 → Fin S8191x1.rank)
  slices_S8192x4096_S8191x4096_0_0 : S8192x4096.Slices ![0, 0] S8191x4096
  bcast_S8191x1_S8191x4096_0_1 : S8191x1.BroadcastsInDim S8191x4096 (![0, 1] : Fin 2 → Fin S8191x4096.rank)
  slices_S9x8192_S1x8192_4_0 : S9x8192.Slices ![4, 0] S1x8192
  shapeCasts_S1x8192_S8192 : S1x8192.ShapeCasts S8192
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  slices_S9x8192_S1x8191_5_1 : S9x8192.Slices ![5, 1] S1x8191
  slices_S8192x4096_S8191x4096_1_0 : S8192x4096.Slices ![1, 0] S8191x4096
  slices_S9x8192_S1x8184_6_8 : S9x8192.Slices ![6, 8] S1x8184
  slices_S8192x4096_S8184x4096_8_0 : S8192x4096.Slices ![8, 0] S8184x4096
  slices_S9x8192_S1x8128_7_64 : S9x8192.Slices ![7, 64] S1x8128
  slices_S8192x4096_S8128x4096_64_0 : S8192x4096.Slices ![64, 0] S8128x4096
  slices_S9x8192_S1x8064_8_128 : S9x8192.Slices ![8, 128] S1x8064
  slices_S8192x4096_S8064x4096_128_0 : S8192x4096.Slices ![128, 0] S8064x4096
  scatter_S8192x4096_S1_S8064x4096_01_n_0_0_wf : ScatterDims.WF S8192x4096 S1 S8064x4096 [0, 1] [] [0] 0
  scatter_S8192x4096_S1_S8128x4096_01_n_0_0_wf : ScatterDims.WF S8192x4096 S1 S8128x4096 [0, 1] [] [0] 0
  scatter_S8192x4096_S1_S8184x4096_01_n_0_0_wf : ScatterDims.WF S8192x4096 S1 S8184x4096 [0, 1] [] [0] 0
  scatter_S8192x4096_S1_S8191x4096_01_n_0_0_wf : ScatterDims.WF S8192x4096 S1 S8191x4096 [0, 1] [] [0] 0
  scatter_S8192x4096_S0_S8192x4096_01_n_n_0_wf : ScatterDims.WF S8192x4096 S0 S8192x4096 [0, 1] [] [] 0

variable [Facts₀]

def scatter_S8192x4096_S1_S8064x4096_01_n_0_0 : ScatterDims S8192x4096 S1 S8064x4096 where
  updateWindowDims := [0, 1]
  insertedWindowDims := []
  scatterDimsToOperandDims := [0]
  indexVectorDim := 0
  wf := scatter_S8192x4096_S1_S8064x4096_01_n_0_0_wf
def scatter_S8192x4096_S1_S8128x4096_01_n_0_0 : ScatterDims S8192x4096 S1 S8128x4096 where
  updateWindowDims := [0, 1]
  insertedWindowDims := []
  scatterDimsToOperandDims := [0]
  indexVectorDim := 0
  wf := scatter_S8192x4096_S1_S8128x4096_01_n_0_0_wf
def scatter_S8192x4096_S1_S8184x4096_01_n_0_0 : ScatterDims S8192x4096 S1 S8184x4096 where
  updateWindowDims := [0, 1]
  insertedWindowDims := []
  scatterDimsToOperandDims := [0]
  indexVectorDim := 0
  wf := scatter_S8192x4096_S1_S8184x4096_01_n_0_0_wf
def scatter_S8192x4096_S1_S8191x4096_01_n_0_0 : ScatterDims S8192x4096 S1 S8191x4096 where
  updateWindowDims := [0, 1]
  insertedWindowDims := []
  scatterDimsToOperandDims := [0]
  indexVectorDim := 0
  wf := scatter_S8192x4096_S1_S8191x4096_01_n_0_0_wf
def scatter_S8192x4096_S0_S8192x4096_01_n_n_0 : ScatterDims S8192x4096 S0 S8192x4096 where
  updateWindowDims := [0, 1]
  insertedWindowDims := []
  scatterDimsToOperandDims := []
  indexVectorDim := 0
  wf := scatter_S8192x4096_S0_S8192x4096_01_n_n_0_wf

class Facts : Prop extends Facts₀ where

variable [Facts]
-- ==== Proof.Spec.lean ====
/-
  The banded product, index by index.

  A band matrix with nine diagonals at the offsets -128, -64, -8, -1, 0, 1, 8, 64, 128 is stored as a 9 × 8192 table
  `d`: row `k` of the table is the diagonal at offset `off k`, stored by COLUMN of the matrix, so the matrix entry
  `(i, i + off k)` is `d (k, i + off k)`. Its product with a dense 8192 × 4096 matrix `o` has the entry
      `(i, c) ↦ Σ_k  d (k, i + off k) · o (i + off k, c)`,
  the sum over those `k` whose column `i + off k` lies inside `[0, 8192)`.

  It is convenient to shift rows by 128: with `s k = 128 + off k` (so `s = 0, 64, 120, 127, 128, 129, 136, 192, 256`)
  and both operands extended by zero to the padded row range `[0, 8448)` (row `r` of the padded operand is row
  `r - 128` of the operand for `128 ≤ r < 8320` and zero otherwise), the entry is the nine-term sum
      `(i, c) ↦ ((0 + dP (0, s 0 + i) · oP (s 0 + i, c)) + …) + dP (8, s 8 + i) · oP (s 8 + i, c)`,
  accumulated in the order of `k`. A term whose padded row falls on the padding is `0 · 0 = 0` and adding it changes
  nothing: this holds on all extended reals, so no finiteness of the operands is needed anywhere.
-/
import Idealize.ShloMosaic.PureOps.Ideal
import Idealize.ShloMosaic.Lib.ValueIdx

noncomputable section

namespace Cert.Banded

open Idealize.ShloMosaic Idealize.ShloMosaic.ValueIdx

/-- The diagonals table in padded row coordinates: entry `(k, r - 128)` for `128 ≤ r < 8320`, zero on the 128
    padding rows on either side. -/
def diagPad (d : (⟨2, ![9, 8192]⟩ : Shape).Idx → EReal) (k : Fin 9) (r : ℕ) : EReal :=
  if h : 128 ≤ r ∧ r < 8320 then d (ix2 k (⟨r - 128, by omega⟩ : Fin 8192)) else 0

/-- The dense operand in padded row coordinates: row `r - 128` for `128 ≤ r < 8320`, zero on the padding rows. -/
def densePad (o : (⟨2, ![8192, 4096]⟩ : Shape).Idx → EReal) (r : ℕ) (c : Fin 4096) : EReal :=
  if h : 128 ≤ r ∧ r < 8320 then o (ix2 (⟨r - 128, by omega⟩ : Fin 8192) c) else 0

/-- Diagonal `k`'s contribution to the entry `(i, c)`: the padded table at row `s + i` times the padded operand's
    row `s + i`, where `s` is 128 plus the diagonal's offset. -/
def term (d : (⟨2, ![9, 8192]⟩ : Shape).Idx → EReal) (o : (⟨2, ![8192, 4096]⟩ : Shape).Idx → EReal)
    (k : Fin 9) (s : ℕ) (i : Fin 8192) (c : Fin 4096) : EReal :=
  diagPad d k (s + i.val) * densePad o (s + i.val) c

/-- The banded product, entry by entry: the nine contributions added to zero in the order of the diagonals. -/
def prod (d : (⟨2, ![9, 8192]⟩ : Shape).Idx → EReal) (o : (⟨2, ![8192, 4096]⟩ : Shape).Idx → EReal) :
    (⟨2, ![8192, 4096]⟩ : Shape).Idx → EReal := fun j =>
  ((((((((0 + term d o 0 0 (j 0) (j 1)) + term d o 1 64 (j 0) (j 1)) + term d o 2 120 (j 0) (j 1))
    + term d o 3 127 (j 0) (j 1)) + term d o 4 128 (j 0) (j 1)) + term d o 5 129 (j 0) (j 1))
    + term d o 6 136 (j 0) (j 1)) + term d o 7 192 (j 0) (j 1)) + term d o 8 256 (j 0) (j 1)

/-- A contribution whose padded row lies inside the operands is the plain product of the two entries. -/
theorem term_inside (d : (⟨2, ![9, 8192]⟩ : Shape).Idx → EReal) (o : (⟨2, ![8192, 4096]⟩ : Shape).Idx → EReal)
    (k : Fin 9) (s : ℕ) (i : Fin 8192) (c : Fin 4096) (h : 128 ≤ s + i.val ∧ s + i.val < 8320) :
    term d o k s i c = d (ix2 k (⟨s + i.val - 128, by omega⟩ : Fin 8192)) * o (ix2 (⟨s + i.val - 128, by omega⟩ : Fin 8192) c) := by
  unfold term diagPad densePad
  rw [dif_pos h, dif_pos h]

/-- A contribution whose padded row lies on the padding is zero, and adding it changes nothing. -/
theorem add_term_outside (d : (⟨2, ![9, 8192]⟩ : Shape).Idx → EReal) (o : (⟨2, ![8192, 4096]⟩ : Shape).Idx → EReal)
    (k : Fin 9) (s : ℕ) (i : Fin 8192) (c : Fin 4096) (h : ¬ (128 ≤ s + i.val ∧ s + i.val < 8320)) (acc : EReal) :
    acc + term d o k s i c = acc := by
  unfold term diagPad densePad
  rw [dif_neg h, dif_neg h, mul_zero, add_zero]

end Cert.Banded

end
-- ==== Proof.LibScatterRead.lean ====
/-
  A host scatter read at one index.

  `Host.scatter d f x idx upd` folds over the update indices in row-major order: update index `j` lands at the
  operand index `d.resultIdx? j idx` (start index plus window coordinate), when that is inside the operand, and replaces
  the element there by `f` of it and the update's element. When no two update indices land on one operand index — every
  scatter of ONE window at one start index is such — each operand element meets at most one step of the fold, so the
  fold can be read at an index without running it:
    * an operand index that update index `j` lands on holds `f (x i) (upd j)`        (`scatter_apply_of_lands`);
    * an operand index that no update index lands on keeps `x i`                        (`scatter_apply_of_missed`).
  Nothing is assumed of `f`.
-/
import Idealize.ShloMosaic.PureOps.ShapeOps

namespace Idealize.ShloMosaic.ScatterRead

variable {α : Type} {s si u : Shape} {w : Nat}

/-- The fold's step function, as `Host.scatter` spells it. -/
private abbrev step (d : ScatterDims s si u) (f : α → α → α) (idx : IVec si w) (upd : u.Idx → α) :
    (s.Idx → α) → Fin u.numel → (s.Idx → α) := fun r n =>
  match d.resultIdx? (u.rowMajor.symm n) idx with
  | some i => fun i' => if i' = i then f (r i) (upd (u.rowMajor.symm n)) else r i'
  | none => r

/-- Steps none of which lands on `i` leave the element at `i` as it was. -/
private theorem foldl_missed (d : ScatterDims s si u) (f : α → α → α) (idx : IVec si w) (upd : u.Idx → α) (i : s.Idx) :
    ∀ (l : List (Fin u.numel)) (x : s.Idx → α),
      (∀ n ∈ l, d.resultIdx? (u.rowMajor.symm n) idx ≠ some i) → (l.foldl (step d f idx upd) x) i = x i
  | [], _, _ => rfl
  | n :: l, x, h => by
    rw [List.foldl_cons, foldl_missed d f idx upd i l _ (fun n' hn' => h n' (List.mem_cons_of_mem _ hn'))]
    have hn := h n List.mem_cons_self
    show (match d.resultIdx? (u.rowMajor.symm n) idx with
      | some i0 => fun i' => if i' = i0 then f (x i0) (upd (u.rowMajor.symm n)) else x i'
      | none => x) i = x i
    generalize hr : d.resultIdx? (u.rowMajor.symm n) idx = ro
    cases ro with
    | none => rfl
    | some i0 => exact if_neg (fun e => hn (by rw [hr, e]))

/-- Among steps no two of which land on one index, the one that lands on `i` decides the element there. -/
private theorem foldl_lands (d : ScatterDims s si u) (f : α → α → α) (idx : IVec si w) (upd : u.Idx → α)
    (hinj : ∀ (n n' : Fin u.numel) (i : s.Idx), d.resultIdx? (u.rowMajor.symm n) idx = some i →
      d.resultIdx? (u.rowMajor.symm n') idx = some i → n = n')
    (i : s.Idx) (n0 : Fin u.numel) (h0 : d.resultIdx? (u.rowMajor.symm n0) idx = some i) :
    ∀ (l : List (Fin u.numel)) (x : s.Idx → α), l.Nodup → n0 ∈ l →
      (l.foldl (step d f idx upd) x) i = f (x i) (upd (u.rowMajor.symm n0))
  | [], _, _, hmem => absurd hmem List.not_mem_nil
  | n :: l, x, hnd, hmem => by
    rw [List.foldl_cons]
    by_cases hn : n = n0
    · subst hn
      rw [foldl_missed d f idx upd i l _ (fun n' hn' e => (List.nodup_cons.mp hnd).1 ((hinj n' n i e h0) ▸ hn'))]
      show (match d.resultIdx? (u.rowMajor.symm n) idx with
        | some i0 => fun i' => if i' = i0 then f (x i0) (upd (u.rowMajor.symm n)) else x i'
        | none => x) i = f (x i) (upd (u.rowMajor.symm n))
      rw [h0]
      exact if_pos rfl
    · have hmem' : n0 ∈ l := (List.mem_cons.mp hmem).resolve_left (Ne.symm hn)
      rw [foldl_lands d f idx upd hinj i n0 h0 l _ (List.nodup_cons.mp hnd).2 hmem']
      congr 1
      show (match d.resultIdx? (u.rowMajor.symm n) idx with
        | some i0 => fun i' => if i' = i0 then f (x i0) (upd (u.rowMajor.symm n)) else x i'
        | none => x) i = x i
      generalize hr : d.resultIdx? (u.rowMajor.symm n) idx = ro
      cases ro with
      | none => rfl
      | some i0 => exact if_neg (fun e => hn (hinj n n0 i (by rw [hr, e]) h0))

/-- An operand index on which no update index lands keeps the operand's element. -/
theorem scatter_apply_of_missed (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  exact foldl_missed d f idx upd i _ x (fun n _ => h _)

/-- When no two update indices land on one operand index, the operand index on which update index `j` lands holds
    `f` of the operand's element and the update's element at `j`. -/
theorem scatter_apply_of_lands (d : ScatterDims s si u) (f : α → α → α) (x : s.Idx → α) (idx : IVec si w)
    (upd : u.Idx → α)
    (hinj : ∀ (j j' : u.Idx) (i : s.Idx), d.resultIdx? j idx = some i → d.resultIdx? j' idx = some i → j = j')
    (j : u.Idx) (i : s.Idx) (h : d.resultIdx? j idx = some i) :
    Host.scatter d f x idx upd i = f (x i) (upd j) := by
  unfold Host.scatter
  have h0 : d.resultIdx? (u.rowMajor.symm (u.rowMajor j)) idx = some i := by rw [Equiv.symm_apply_apply]; exact h
  have := foldl_lands d f idx upd
    (fun n n' i' e e' => u.rowMajor.symm.injective (hinj _ _ i' e e')) i (u.rowMajor j) h0
    (List.finRange u.numel) x (List.nodup_finRange _) (List.mem_finRange _)
  rw [Equiv.symm_apply_apply] at this
  exact this

end Idealize.ShloMosaic.ScatterRead
-- ==== Proof.ScatterWindow.lean ====
/-
  A scatter of ONE window of whole rows, read at an index.

  The operand is an 8192 × 4096 array, the update an R × 4096 array, and update index `(r, c)` lands on the operand index
  `(t + r, c)`: the window's start is row `t` on the row axis and `0` on the column axis, and the window coordinate
  of an update index is the index itself. With `t + R ≤ 8192` every update index lands inside the operand, no two land
  on one operand index, and the operand index `(i, c)` is landed on exactly when `t ≤ i < t + R`, by `(i - t, c)`.
  So the scattered array at `(i, c)` is `f (x (i, c)) (upd (i - t, c))` for `t ≤ i < t + R` and `x (i, c)` on the
  other rows.
-/
import proofs.«149076_j76501957477134_2_alg».proof.Proof.LibScatterRead
import Idealize.ShloMosaic.Lib.ValueIdx

namespace Cert.Banded.ScatterWindow

open Idealize.ShloMosaic Idealize.ShloMosaic.ValueIdx Idealize.ShloMosaic.ScatterRead

variable {α : Type} {si : Shape} {w R : Nat}

/-- Update index `(r, c)` lands on the operand index `(t + r, c)`. -/
theorem resultIdx_eq (d : ScatterDims (⟨2, ![8192, 4096]⟩ : Shape) si (⟨2, ![R, 4096]⟩ : Shape)) (idx : IVec si w)
    (t : Nat) (hR : t + R ≤ 8192)
    (hw0 : ∀ j : (⟨2, ![R, 4096]⟩ : Shape).Idx, d.window j (0 : Fin 2) = (j 0).val)
    (hw1 : ∀ j : (⟨2, ![R, 4096]⟩ : Shape).Idx, d.window j (1 : Fin 2) = (j 1).val)
    (hs0 : ∀ j : (⟨2, ![R, 4096]⟩ : Shape).Idx, d.start j idx (0 : Fin 2) = (t : Int))
    (hs1 : ∀ j : (⟨2, ![R, 4096]⟩ : Shape).Idx, d.start j idx (1 : Fin 2) = 0)
    (j : (⟨2, ![R, 4096]⟩ : Shape).Idx) :
    d.resultIdx? j idx
      = some (ix2 (⟨t + (j 0).val, by have := idx2_lt0 j; omega⟩ : Fin 8192) (j 1)) := by
  have h0 := idx2_lt0 j
  have h1 := idx2_lt1 j
  have h : ∀ a : Fin (⟨2, ![8192, 4096]⟩ : Shape).rank, 0 ≤ d.start j idx a + d.window j a
      ∧ d.start j idx a + d.window j a < (⟨2, ![8192, 4096]⟩ : Shape).size a := by
    intro a
    match a with
    | ⟨0, _⟩ =>
      show 0 ≤ d.start j idx (0 : Fin 2) + d.window j (0 : Fin 2)
        ∧ d.start j idx (0 : Fin 2) + d.window j (0 : Fin 2) < ((8192 : Nat) : Int)
      rw [hs0, hw0]; omega
    | ⟨1, _⟩ =>
      show 0 ≤ d.start j idx (1 : Fin 2) + d.window j (1 : Fin 2)
        ∧ d.start j idx (1 : Fin 2) + d.window j (1 : Fin 2) < ((4096 : Nat) : Int)
      rw [hs1, hw1]; omega
  unfold ScatterDims.resultIdx?
  rw [dif_pos h]
  congr 1
  funext a
  match a with
  | ⟨0, _⟩ =>
    apply Fin.ext
    show (d.start j idx (0 : Fin 2) + d.window j (0 : Fin 2)).toNat = t + (j 0).val
    rw [hs0, hw0]; omega
  | ⟨1, _⟩ =>
    apply Fin.ext
    show (d.start j idx (1 : Fin 2) + d.window j (1 : Fin 2)).toNat = (j 1).val
    rw [hs1, hw1]; omega

/-- A row inside the window holds `f` of the operand's element and the update's element at the row's offset in the window. -/
theorem scatter_apply_inside (d : ScatterDims (⟨2, ![8192, 4096]⟩ : Shape) si (⟨2, ![R, 4096]⟩ : Shape)) (f : α → α → α)
    (x : (⟨2, ![8192, 4096]⟩ : Shape).Idx → α) (idx : IVec si w) (upd : (⟨2, ![R, 4096]⟩ : Shape).Idx → α)
    (t : Nat) (hR : t + R ≤ 8192)
    (hw0 : ∀ j : (⟨2, ![R, 4096]⟩ : Shape).Idx, d.window j (0 : Fin 2) = (j 0).val)
    (hw1 : ∀ j : (⟨2, ![R, 4096]⟩ : Shape).Idx, d.window j (1 : Fin 2) = (j 1).val)
    (hs0 : ∀ j : (⟨2, ![R, 4096]⟩ : Shape).Idx, d.start j idx (0 : Fin 2) = (t : Int))
    (hs1 : ∀ j : (⟨2, ![R, 4096]⟩ : Shape).Idx, d.start j idx (1 : Fin 2) = 0)
    (i : (⟨2, ![8192, 4096]⟩ : Shape).Idx) (hi : t ≤ (i 0).val ∧ (i 0).val < t + R) :
    Host.scatter d f x idx upd i = f (x i) (upd (ix2 (⟨(i 0).val - t, by omega⟩ : Fin R) (i 1))) := by
  refine scatter_apply_of_lands d f x idx upd ?_ _ i ?_
  · intro j j' i' e e'
    rw [resultIdx_eq d idx t hR hw0 hw1 hs0 hs1] at e e'
    have e0 := congrFun (Option.some.inj (e.trans e'.symm)) (0 : Fin 2)
    have e1 := congrFun (Option.some.inj (e.trans e'.symm)) (1 : Fin 2)
    have v0 : t + (j 0).val = t + (j' 0).val := congrArg Fin.val e0
    funext a
    match a with
    | ⟨0, _⟩ => apply Fin.ext; show (j 0).val = (j' 0).val; omega
    | ⟨1, _⟩ => exact e1
  · rw [resultIdx_eq d idx t hR hw0 hw1 hs0 hs1]
    congr 1
    funext a
    match a with
    | ⟨0, _⟩ => apply Fin.ext; show t + ((i 0).val - t) = (i 0).val; omega
    | ⟨1, _⟩ => rfl

/-- A row outside the window keeps the operand's element. -/
theorem scatter_apply_outside (d : ScatterDims (⟨2, ![8192, 4096]⟩ : Shape) si (⟨2, ![R, 4096]⟩ : Shape)) (f : α → α → α)
    (x : (⟨2, ![8192, 4096]⟩ : Shape).Idx → α) (idx : IVec si w) (upd : (⟨2, ![R, 4096]⟩ : Shape).Idx → α)
    (t : Nat) (hR : t + R ≤ 8192)
    (hw0 : ∀ j : (⟨2, ![R, 4096]⟩ : Shape).Idx, d.window j (0 : Fin 2) = (j 0).val)
    (hw1 : ∀ j : (⟨2, ![R, 4096]⟩ : Shape).Idx, d.window j (1 : Fin 2) = (j 1).val)
    (hs0 : ∀ j : (⟨2, ![R, 4096]⟩ : Shape).Idx, d.start j idx (0 : Fin 2) = (t : Int))
    (hs1 : ∀ j : (⟨2, ![R, 4096]⟩ : Shape).Idx, d.start j idx (1 : Fin 2) = 0)
    (i : (⟨2, ![8192, 4096]⟩ : Shape).Idx) (hi : ¬ (t ≤ (i 0).val ∧ (i 0).val < t + R)) :
    Host.scatter d f x idx upd i = x i := by
  refine scatter_apply_of_missed d f x idx upd i ?_
  intro j e
  rw [resultIdx_eq d idx t hR hw0 hw1 hs0 hs1] at e
  have e0 := congrFun (Option.some.inj e) (0 : Fin 2)
  have v0 : t + (j 0).val = (i 0).val := congrArg Fin.val e0
  have := idx2_lt0 j
  omega

end Cert.Banded.ScatterWindow
-- ==== Proof.RefSteps.lean ====
/-
  The reference program's nine steps, each read at an index.

  The program starts from an array of zeros and, for each of the nine diagonals in order, scatters one window of rows:
  it adds, to the rows the diagonal touches, the diagonal's slice times the matching rows of the dense operand. Read at
  an entry `(i, c)`, step `k` adds the banded product's `k`-th contribution `Cert.Banded.term x0 x1 k (s k) i c`
  (which is zero on the rows the window does not cover).
-/
import proofs.«149076_j76501957477134_2_alg».proof.Proof.RefRead
import proofs.«149076_j76501957477134_2_alg».proof.Proof.Spec
import proofs.«149076_j76501957477134_2_alg».proof.Proof.ScatterWindow

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx Cert.Banded.ScatterWindow

/-! ## The five window scatters read at an index

Each of the program's scatters writes ONE window of whole rows: its update is an `R × 4096` array, the window coordinate
of an update index is the index itself, the start is `0` on the column axis and, on the row axis, the one word of the
index array read signed (for the scatter with an empty index array, `0`). So row `i` of the result is
`f (x i) (upd (i - t))` for `t ≤ i < t + R`, `t` the start row, and `x i` on the other rows. -/

variable {α : Type}

/-- The `8064`-row window at start row `t`: a row inside the window. -/
theorem scatter8064_inside (f : α → α → α) (x : S8192x4096.Idx → α) (idx : IVec S1 32) (upd : S8064x4096.Idx → α)
    (t : Nat) (ht : t + 8064 ≤ 8192) (hidx : ∀ k : S1.Idx, (idx k).toInt = (t : Int))
    (i : S8192x4096.Idx) (hi : t ≤ (i 0).val ∧ (i 0).val < t + 8064) :
    Host.scatter scatter_S8192x4096_S1_S8064x4096_01_n_0_0 f x idx upd i
      = f (x i) (upd (ix2 (⟨(i 0).val - t, by omega⟩ : Fin 8064) (i 1))) :=
  scatter_apply_inside scatter_S8192x4096_S1_S8064x4096_01_n_0_0 f x idx upd t ht
    (fun _ => rfl) (fun _ => rfl) (fun _ => hidx _) (fun _ => rfl) i hi

/-- The `8064`-row window at start row `t`: a row outside the window. -/
theorem scatter8064_outside (f : α → α → α) (x : S8192x4096.Idx → α) (idx : IVec S1 32) (upd : S8064x4096.Idx → α)
    (t : Nat) (ht : t + 8064 ≤ 8192) (hidx : ∀ k : S1.Idx, (idx k).toInt = (t : Int))
    (i : S8192x4096.Idx) (hi : ¬ (t ≤ (i 0).val ∧ (i 0).val < t + 8064)) :
    Host.scatter scatter_S8192x4096_S1_S8064x4096_01_n_0_0 f x idx upd i = x i :=
  scatter_apply_outside scatter_S8192x4096_S1_S8064x4096_01_n_0_0 f x idx upd t ht
    (fun _ => rfl) (fun _ => rfl) (fun _ => hidx _) (fun _ => rfl) i hi

/-- The `8128`-row window at start row `t`: a row inside the window. -/
theorem scatter8128_inside (f : α → α → α) (x : S8192x4096.Idx → α) (idx : IVec S1 32) (upd : S8128x4096.Idx → α)
    (t : Nat) (ht : t + 8128 ≤ 8192) (hidx : ∀ k : S1.Idx, (idx k).toInt = (t : Int))
    (i : S8192x4096.Idx) (hi : t ≤ (i 0).val ∧ (i 0).val < t + 8128) :
    Host.scatter scatter_S8192x4096_S1_S8128x4096_01_n_0_0 f x idx upd i
      = f (x i) (upd (ix2 (⟨(i 0).val - t, by omega⟩ : Fin 8128) (i 1))) :=
  scatter_apply_inside scatter_S8192x4096_S1_S8128x4096_01_n_0_0 f x idx upd t ht
    (fun _ => rfl) (fun _ => rfl) (fun _ => hidx _) (fun _ => rfl) i hi

/-- The `8128`-row window at start row `t`: a row outside the window. -/
theorem scatter8128_outside (f : α → α → α) (x : S8192x4096.Idx → α) (idx : IVec S1 32) (upd : S8128x4096.Idx → α)
    (t : Nat) (ht : t + 8128 ≤ 8192) (hidx : ∀ k : S1.Idx, (idx k).toInt = (t : Int))
    (i : S8192x4096.Idx) (hi : ¬ (t ≤ (i 0).val ∧ (i 0).val < t + 8128)) :
    Host.scatter scatter_S8192x4096_S1_S8128x4096_01_n_0_0 f x idx upd i = x i :=
  scatter_apply_outside scatter_S8192x4096_S1_S8128x4096_01_n_0_0 f x idx upd t ht
    (fun _ => rfl) (fun _ => rfl) (fun _ => hidx _) (fun _ => rfl) i hi

/-- The `8184`-row window at start row `t`: a row inside the window. -/
theorem scatter8184_inside (f : α → α → α) (x : S8192x4096.Idx → α) (idx : IVec S1 32) (upd : S8184x4096.Idx → α)
    (t : Nat) (ht : t + 8184 ≤ 8192) (hidx : ∀ k : S1.Idx, (idx k).toInt = (t : Int))
    (i : S8192x4096.Idx) (hi : t ≤ (i 0).val ∧ (i 0).val < t + 8184) :
    Host.scatter scatter_S8192x4096_S1_S8184x4096_01_n_0_0 f x idx upd i
      = f (x i) (upd (ix2 (⟨(i 0).val - t, by omega⟩ : Fin 8184) (i 1))) :=
  scatter_apply_inside scatter_S8192x4096_S1_S8184x4096_01_n_0_0 f x idx upd t ht
    (fun _ => rfl) (fun _ => rfl) (fun _ => hidx _) (fun _ => rfl) i hi

/-- The `8184`-row window at start row `t`: a row outside the window. -/
theorem scatter8184_outside (f : α → α → α) (x : S8192x4096.Idx → α) (idx : IVec S1 32) (upd : S8184x4096.Idx → α)
    (t : Nat) (ht : t + 8184 ≤ 8192) (hidx : ∀ k : S1.Idx, (idx k).toInt = (t : Int))
    (i : S8192x4096.Idx) (hi : ¬ (t ≤ (i 0).val ∧ (i 0).val < t + 8184)) :
    Host.scatter scatter_S8192x4096_S1_S8184x4096_01_n_0_0 f x idx upd i = x i :=
  scatter_apply_outside scatter_S8192x4096_S1_S8184x4096_01_n_0_0 f x idx upd t ht
    (fun _ => rfl) (fun _ => rfl) (fun _ => hidx _) (fun _ => rfl) i hi

/-- The `8191`-row window at start row `t`: a row inside the window. -/
theorem scatter8191_inside (f : α → α → α) (x : S8192x4096.Idx → α) (idx : IVec S1 32) (upd : S8191x4096.Idx → α)
    (t : Nat) (ht : t + 8191 ≤ 8192) (hidx : ∀ k : S1.Idx, (idx k).toInt = (t : Int))
    (i : S8192x4096.Idx) (hi : t ≤ (i 0).val ∧ (i 0).val < t + 8191) :
    Host.scatter scatter_S8192x4096_S1_S8191x4096_01_n_0_0 f x idx upd i
      = f (x i) (upd (ix2 (⟨(i 0).val - t, by omega⟩ : Fin 8191) (i 1))) :=
  scatter_apply_inside scatter_S8192x4096_S1_S8191x4096_01_n_0_0 f x idx upd t ht
    (fun _ => rfl) (fun _ => rfl) (fun _ => hidx _) (fun _ => rfl) i hi

/-- The `8191`-row window at start row `t`: a row outside the window. -/
theorem scatter8191_outside (f : α → α → α) (x : S8192x4096.Idx → α) (idx : IVec S1 32) (upd : S8191x4096.Idx → α)
    (t : Nat) (ht : t + 8191 ≤ 8192) (hidx : ∀ k : S1.Idx, (idx k).toInt = (t : Int))
    (i : S8192x4096.Idx) (hi : ¬ (t ≤ (i 0).val ∧ (i 0).val < t + 8191)) :
    Host.scatter scatter_S8192x4096_S1_S8191x4096_01_n_0_0 f x idx upd i = x i :=
  scatter_apply_outside scatter_S8192x4096_S1_S8191x4096_01_n_0_0 f x idx upd t ht
    (fun _ => rfl) (fun _ => rfl) (fun _ => hidx _) (fun _ => rfl) i hi

/-- The scatter with no start index: the window is the whole array, and every element meets its own update. -/
theorem scatter8192_whole (f : α → α → α) (x : S8192x4096.Idx → α) (idx : IVec S0 32) (upd : S8192x4096.Idx → α)
    (i : S8192x4096.Idx) :
    Host.scatter scatter_S8192x4096_S0_S8192x4096_01_n_n_0 f x idx upd i = f (x i) (upd i) := by
  have hi : 0 ≤ (i 0).val ∧ (i 0).val < 0 + 8192 := by have := idx2_lt0 i; omega
  rw [scatter_apply_inside scatter_S8192x4096_S0_S8192x4096_01_n_n_0 f x idx upd 0 (by omega)
    (fun _ => rfl) (fun _ => rfl) (fun _ => rfl) (fun _ => rfl) i hi]
  congr 2
  funext a
  match a with
  | ⟨0, _⟩ => rfl
  | ⟨1, _⟩ => rfl

/-! ## The nine updates read at an index

Step `k`'s update is the product of diagonal `k`'s slice, spread along the columns, and the matching slice of rows of
the dense operand: at the update index `(r, c)` it is `x0 (k, r + st) * x1 (r + st, c)`, `st` the slices' first row. -/

/-- Step 0's update at the index `(r, c)`, in terms of the source row `r + 0`. -/
theorem upd0_row (x0 : (⟨S9x8192, .f32⟩ : BufTy).Contents (Elt Ideal)) (x1 : (⟨S8192x4096, .f32⟩ : BufTy).Contents (Elt Ideal))
    (j : S8064x4096.Idx) (r : Fin 8192) (hr : r.val = (j 0).val + 0) :
    val_main_v6 (F := Ideal) x0 x1 j = x0 (ix2 (0 : Fin 9) r) * x1 (ix2 r (j 1)) := by
  rw [val_main_v6_apply, val_main_v5_apply, val_main_v3_apply, val_main_v2_apply, val_main_v1_apply, val_main_v4_apply,
    Ideal.mulf_def]
  have h0 := idx2_lt0 j
  congr 2
  · funext a
    match a with
    | ⟨0, _⟩ => rfl
    | ⟨1, _⟩ => apply Fin.ext; show (j 0).val % 8064 = r.val; omega
  · funext a
    match a with
    | ⟨0, _⟩ => apply Fin.ext; show (j 0).val = r.val; omega
    | ⟨1, _⟩ => rfl

/-- Step 1's update at the index `(r, c)`, in terms of the source row `r + 0`. -/
theorem upd1_row (x0 : (⟨S9x8192, .f32⟩ : BufTy).Contents (Elt Ideal)) (x1 : (⟨S8192x4096, .f32⟩ : BufTy).Contents (Elt Ideal))
    (j : S8128x4096.Idx) (r : Fin 8192) (hr : r.val = (j 0).val + 0) :
    val_main_v14 (F := Ideal) x0 x1 j = x0 (ix2 (1 : Fin 9) r) * x1 (ix2 r (j 1)) := by
  rw [val_main_v14_apply, val_main_v13_apply, val_main_v11_apply, val_main_v10_apply, val_main_v9_apply, val_main_v12_apply,
    Ideal.mulf_def]
  have h0 := idx2_lt0 j
  congr 2
  · funext a
    match a with
    | ⟨0, _⟩ => rfl
    | ⟨1, _⟩ => apply Fin.ext; show (j 0).val % 8128 = r.val; omega
  · funext a
    match a with
    | ⟨0, _⟩ => apply Fin.ext; show (j 0).val = r.val; omega
    | ⟨1, _⟩ => rfl

/-- Step 2's update at the index `(r, c)`, in terms of the source row `r + 0`. -/
theorem upd2_row (x0 : (⟨S9x8192, .f32⟩ : BufTy).Contents (Elt Ideal)) (x1 : (⟨S8192x4096, .f32⟩ : BufTy).Contents (Elt Ideal))
    (j : S8184x4096.Idx) (r : Fin 8192) (hr : r.val = (j 0).val + 0) :
    val_main_v22 (F := Ideal) x0 x1 j = x0 (ix2 (2 : Fin 9) r) * x1 (ix2 r (j 1)) := by
  rw [val_main_v22_apply, val_main_v21_apply, val_main_v19_apply, val_main_v18_apply, val_main_v17_apply, val_main_v20_apply,
    Ideal.mulf_def]
  have h0 := idx2_lt0 j
  congr 2
  · funext a
    match a with
    | ⟨0, _⟩ => rfl
    | ⟨1, _⟩ => apply Fin.ext; show (j 0).val % 8184 = r.val; omega
  · funext a
    match a with
    | ⟨0, _⟩ => apply Fin.ext; show (j 0).val = r.val; omega
    | ⟨1, _⟩ => rfl

/-- Step 3's update at the index `(r, c)`, in terms of the source row `r + 0`. -/
theorem upd3_row (x0 : (⟨S9x8192, .f32⟩ : BufTy).Contents (Elt Ideal)) (x1 : (⟨S8192x4096, .f32⟩ : BufTy).Contents (Elt Ideal))
    (j : S8191x4096.Idx) (r : Fin 8192) (hr : r.val = (j 0).val + 0) :
    val_main_v30 (F := Ideal) x0 x1 j = x0 (ix2 (3 : Fin 9) r) * x1 (ix2 r (j 1)) := by
  rw [val_main_v30_apply, val_main_v29_apply, val_main_v27_apply, val_main_v26_apply, val_main_v25_apply, val_main_v28_apply,
    Ideal.mulf_def]
  have h0 := idx2_lt0 j
  congr 2
  · funext a
    match a with
    | ⟨0, _⟩ => rfl
    | ⟨1, _⟩ => apply Fin.ext; show (j 0).val % 8191 = r.val; omega
  · funext a
    match a with
    | ⟨0, _⟩ => apply Fin.ext; show (j 0).val = r.val; omega
    | ⟨1, _⟩ => rfl

/-- Step 4's update at the index `(r, c)`, in terms of the source row `r + 0`. -/
theorem upd4_row (x0 : (⟨S9x8192, .f32⟩ : BufTy).Contents (Elt Ideal)) (x1 : (⟨S8192x4096, .f32⟩ : BufTy).Contents (Elt Ideal))
    (j : S8192x4096.Idx) (r : Fin 8192) (hr : r.val = (j 0).val + 0) :
    val_main_v37 (F := Ideal) x0 x1 j = x0 (ix2 (4 : Fin 9) r) * x1 (ix2 r (j 1)) := by
  rw [val_main_v37_apply, val_main_v36_apply, val_main_v35_apply, val_main_v34_apply, val_main_v33_apply,
    Ideal.mulf_def]
  have h0 := idx2_lt0 j
  congr 2
  · funext a
    match a with
    | ⟨0, _⟩ => rfl
    | ⟨1, _⟩ => apply Fin.ext; show (j 0).val % 8192 = r.val; omega
  · funext a
    match a with
    | ⟨0, _⟩ => apply Fin.ext; show (j 0).val = r.val; omega
    | ⟨1, _⟩ => rfl

/-- Step 5's update at the index `(r, c)`, in terms of the source row `r + 1`. -/
theorem upd5_row (x0 : (⟨S9x8192, .f32⟩ : BufTy).Contents (Elt Ideal)) (x1 : (⟨S8192x4096, .f32⟩ : BufTy).Contents (Elt Ideal))
    (j : S8191x4096.Idx) (r : Fin 8192) (hr : r.val = (j 0).val + 1) :
    val_main_v44 (F := Ideal) x0 x1 j = x0 (ix2 (5 : Fin 9) r) * x1 (ix2 r (j 1)) := by
  rw [val_main_v44_apply, val_main_v43_apply, val_main_v41_apply, val_main_v40_apply, val_main_v39_apply, val_main_v42_apply,
    Ideal.mulf_def]
  have h0 := idx2_lt0 j
  congr 2
  · funext a
    match a with
    | ⟨0, _⟩ => rfl
    | ⟨1, _⟩ => apply Fin.ext; show 1 + (j 0).val % 8191 = r.val; omega
  · funext a
    match a with
    | ⟨0, _⟩ => apply Fin.ext; show 1 + (j 0).val = r.val; omega
    | ⟨1, _⟩ => rfl

/-- Step 6's update at the index `(r, c)`, in terms of the source row `r + 8`. -/
theorem upd6_row (x0 : (⟨S9x8192, .f32⟩ : BufTy).Contents (Elt Ideal)) (x1 : (⟨S8192x4096, .f32⟩ : BufTy).Contents (Elt Ideal))
    (j : S8184x4096.Idx) (r : Fin 8192) (hr : r.val = (j 0).val + 8) :
    val_main_v52 (F := Ideal) x0 x1 j = x0 (ix2 (6 : Fin 9) r) * x1 (ix2 r (j 1)) := by
  rw [val_main_v52_apply, val_main_v51_apply, val_main_v49_apply, val_main_v48_apply, val_main_v47_apply, val_main_v50_apply,
    Ideal.mulf_def]
  have h0 := idx2_lt0 j
  congr 2
  · funext a
    match a with
    | ⟨0, _⟩ => rfl
    | ⟨1, _⟩ => apply Fin.ext; show 8 + (j 0).val % 8184 = r.val; omega
  · funext a
    match a with
    | ⟨0, _⟩ => apply Fin.ext; show 8 + (j 0).val = r.val; omega
    | ⟨1, _⟩ => rfl

/-- Step 7's update at the index `(r, c)`, in terms of the source row `r + 64`. -/
theorem upd7_row (x0 : (⟨S9x8192, .f32⟩ : BufTy).Contents (Elt Ideal)) (x1 : (⟨S8192x4096, .f32⟩ : BufTy).Contents (Elt Ideal))
    (j : S8128x4096.Idx) (r : Fin 8192) (hr : r.val = (j 0).val + 64) :
    val_main_v60 (F := Ideal) x0 x1 j = x0 (ix2 (7 : Fin 9) r) * x1 (ix2 r (j 1)) := by
  rw [val_main_v60_apply, val_main_v59_apply, val_main_v57_apply, val_main_v56_apply, val_main_v55_apply, val_main_v58_apply,
    Ideal.mulf_def]
  have h0 := idx2_lt0 j
  congr 2
  · funext a
    match a with
    | ⟨0, _⟩ => rfl
    | ⟨1, _⟩ => apply Fin.ext; show 64 + (j 0).val % 8128 = r.val; omega
  · funext a
    match a with
    | ⟨0, _⟩ => apply Fin.ext; show 64 + (j 0).val = r.val; omega
    | ⟨1, _⟩ => rfl

/-- Step 8's update at the index `(r, c)`, in terms of the source row `r + 128`. -/
theorem upd8_row (x0 : (⟨S9x8192, .f32⟩ : BufTy).Contents (Elt Ideal)) (x1 : (⟨S8192x4096, .f32⟩ : BufTy).Contents (Elt Ideal))
    (j : S8064x4096.Idx) (r : Fin 8192) (hr : r.val = (j 0).val + 128) :
    val_main_v68 (F := Ideal) x0 x1 j = x0 (ix2 (8 : Fin 9) r) * x1 (ix2 r (j 1)) := by
  rw [val_main_v68_apply, val_main_v67_apply, val_main_v65_apply, val_main_v64_apply, val_main_v63_apply, val_main_v66_apply,
    Ideal.mulf_def]
  have h0 := idx2_lt0 j
  congr 2
  · funext a
    match a with
    | ⟨0, _⟩ => rfl
    | ⟨1, _⟩ => apply Fin.ext; show 128 + (j 0).val % 8064 = r.val; omega
  · funext a
    match a with
    | ⟨0, _⟩ => apply Fin.ext; show 128 + (j 0).val = r.val; omega
    | ⟨1, _⟩ => rfl

/-! ## The nine steps

Step `k` adds diagonal `k`'s contribution to every entry: on the rows of its window the scatter adds the update, which
is the contribution there, and on the other rows — where the contribution's padded row falls on the padding and the
contribution is zero — it leaves the entry as it was. -/

/-- Step 0 (the diagonal at offset -128: rows 128 to 8191). -/
theorem step0 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8064x4096_01_n_0_0 (FloatOps.addf (F := Ideal) (φ := .f32)) acc (val_main_v7 (F := Ideal))
        (val_main_v6 (F := Ideal) x0 x1) : (⟨S8192x4096, .f32⟩ : BufTy).Contents (Elt Ideal)) i
      = acc i + Cert.Banded.term x0 x1 (0 : Fin 9) 0 (i 0) (i 1) := by
  have hidx : ∀ k : S1.Idx, (val_main_v7 (F := Ideal) k).toInt = ((128 : Nat) : Int) := by
    intro k; rw [val_main_v7_apply, val_main_c_0_apply]; decide
  have h0 := idx2_lt0 i
  by_cases hi : 128 ≤ (i 0).val ∧ (i 0).val < 128 + 8064
  · rw [scatter8064_inside (FloatOps.addf (F := Ideal) (φ := .f32)) acc _ _ 128 (by omega) hidx i hi, Ideal.addf_def,
      Cert.Banded.term_inside x0 x1 (0 : Fin 9) 0 (i 0) (i 1) (by omega),
      upd0_row x0 x1 _ (⟨0 + (i 0).val - 128, by omega⟩ : Fin 8192)
        (by show 0 + (i 0).val - 128 = (i 0).val - 128 + 0; omega)]
  · rw [scatter8064_outside (FloatOps.addf (F := Ideal) (φ := .f32)) acc _ _ 128 (by omega) hidx i hi,
      Cert.Banded.add_term_outside x0 x1 (0 : Fin 9) 0 (i 0) (i 1) (by omega)]

/-- Step 1 (the diagonal at offset -64: rows 64 to 8191). -/
theorem step1 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8128x4096_01_n_0_0 (FloatOps.addf (F := Ideal) (φ := .f32)) acc (val_main_v15 (F := Ideal))
        (val_main_v14 (F := Ideal) x0 x1) : (⟨S8192x4096, .f32⟩ : BufTy).Contents (Elt Ideal)) i
      = acc i + Cert.Banded.term x0 x1 (1 : Fin 9) 64 (i 0) (i 1) := by
  have hidx : ∀ k : S1.Idx, (val_main_v15 (F := Ideal) k).toInt = ((64 : Nat) : Int) := by
    intro k; rw [val_main_v15_apply, val_main_c_1_apply]; decide
  have h0 := idx2_lt0 i
  by_cases hi : 64 ≤ (i 0).val ∧ (i 0).val < 64 + 8128
  · rw [scatter8128_inside (FloatOps.addf (F := Ideal) (φ := .f32)) acc _ _ 64 (by omega) hidx i hi, Ideal.addf_def,
      Cert.Banded.term_inside x0 x1 (1 : Fin 9) 64 (i 0) (i 1) (by omega),
      upd1_row x0 x1 _ (⟨64 + (i 0).val - 128, by omega⟩ : Fin 8192)
        (by show 64 + (i 0).val - 128 = (i 0).val - 64 + 0; omega)]
  · rw [scatter8128_outside (FloatOps.addf (F := Ideal) (φ := .f32)) acc _ _ 64 (by omega) hidx i hi,
      Cert.Banded.add_term_outside x0 x1 (1 : Fin 9) 64 (i 0) (i 1) (by omega)]

/-- Step 2 (the diagonal at offset -8: rows 8 to 8191). -/
theorem step2 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8184x4096_01_n_0_0 (FloatOps.addf (F := Ideal) (φ := .f32)) acc (val_main_v23 (F := Ideal))
        (val_main_v22 (F := Ideal) x0 x1) : (⟨S8192x4096, .f32⟩ : BufTy).Contents (Elt Ideal)) i
      = acc i + Cert.Banded.term x0 x1 (2 : Fin 9) 120 (i 0) (i 1) := by
  have hidx : ∀ k : S1.Idx, (val_main_v23 (F := Ideal) k).toInt = ((8 : Nat) : Int) := by
    intro k; rw [val_main_v23_apply, val_main_c_2_apply]; decide
  have h0 := idx2_lt0 i
  by_cases hi : 8 ≤ (i 0).val ∧ (i 0).val < 8 + 8184
  · rw [scatter8184_inside (FloatOps.addf (F := Ideal) (φ := .f32)) acc _ _ 8 (by omega) hidx i hi, Ideal.addf_def,
      Cert.Banded.term_inside x0 x1 (2 : Fin 9) 120 (i 0) (i 1) (by omega),
      upd2_row x0 x1 _ (⟨120 + (i 0).val - 128, by omega⟩ : Fin 8192)
        (by show 120 + (i 0).val - 128 = (i 0).val - 8 + 0; omega)]
  · rw [scatter8184_outside (FloatOps.addf (F := Ideal) (φ := .f32)) acc _ _ 8 (by omega) hidx i hi,
      Cert.Banded.add_term_outside x0 x1 (2 : Fin 9) 120 (i 0) (i 1) (by omega)]

/-- Step 3 (the diagonal at offset -1: rows 1 to 8191). -/
theorem step3 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8191x4096_01_n_0_0 (FloatOps.addf (F := Ideal) (φ := .f32)) acc (val_main_v31 (F := Ideal))
        (val_main_v30 (F := Ideal) x0 x1) : (⟨S8192x4096, .f32⟩ : BufTy).Contents (Elt Ideal)) i
      = acc i + Cert.Banded.term x0 x1 (3 : Fin 9) 127 (i 0) (i 1) := by
  have hidx : ∀ k : S1.Idx, (val_main_v31 (F := Ideal) k).toInt = ((1 : Nat) : Int) := by
    intro k; rw [val_main_v31_apply, val_main_c_3_apply]; decide
  have h0 := idx2_lt0 i
  by_cases hi : 1 ≤ (i 0).val ∧ (i 0).val < 1 + 8191
  · rw [scatter8191_inside (FloatOps.addf (F := Ideal) (φ := .f32)) acc _ _ 1 (by omega) hidx i hi, Ideal.addf_def,
      Cert.Banded.term_inside x0 x1 (3 : Fin 9) 127 (i 0) (i 1) (by omega),
      upd3_row x0 x1 _ (⟨127 + (i 0).val - 128, by omega⟩ : Fin 8192)
        (by show 127 + (i 0).val - 128 = (i 0).val - 1 + 0; omega)]
  · rw [scatter8191_outside (FloatOps.addf (F := Ideal) (φ := .f32)) acc _ _ 1 (by omega) hidx i hi,
      Cert.Banded.add_term_outside x0 x1 (3 : Fin 9) 127 (i 0) (i 1) (by omega)]

/-- Step 4 (the main diagonal: the window is the whole array). -/
theorem step4 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S0_S8192x4096_01_n_n_0 (FloatOps.addf (F := Ideal) (φ := .f32)) acc (val_main_c (F := Ideal))
        (val_main_v37 (F := Ideal) x0 x1) : (⟨S8192x4096, .f32⟩ : BufTy).Contents (Elt Ideal)) i
      = acc i + Cert.Banded.term x0 x1 (4 : Fin 9) 128 (i 0) (i 1) := by
  have h0 := idx2_lt0 i
  rw [scatter8192_whole, Ideal.addf_def, Cert.Banded.term_inside x0 x1 (4 : Fin 9) 128 (i 0) (i 1) (by omega),
    upd4_row x0 x1 i (⟨128 + (i 0).val - 128, by omega⟩ : Fin 8192)
      (by show 128 + (i 0).val - 128 = (i 0).val + 0; omega)]

/-- Step 5 (the diagonal at offset 1: rows 0 to 8190). -/
theorem step5 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8191x4096_01_n_0_0 (FloatOps.addf (F := Ideal) (φ := .f32)) acc (val_main_v45 (F := Ideal))
        (val_main_v44 (F := Ideal) x0 x1) : (⟨S8192x4096, .f32⟩ : BufTy).Contents (Elt Ideal)) i
      = acc i + Cert.Banded.term x0 x1 (5 : Fin 9) 129 (i 0) (i 1) := by
  have hidx : ∀ k : S1.Idx, (val_main_v45 (F := Ideal) k).toInt = ((0 : Nat) : Int) := by
    intro k; rw [val_main_v45_apply, val_main_c_4_apply]; decide
  have h0 := idx2_lt0 i
  by_cases hi : 0 ≤ (i 0).val ∧ (i 0).val < 0 + 8191
  · rw [scatter8191_inside (FloatOps.addf (F := Ideal) (φ := .f32)) acc _ _ 0 (by omega) hidx i hi, Ideal.addf_def,
      Cert.Banded.term_inside x0 x1 (5 : Fin 9) 129 (i 0) (i 1) (by omega),
      upd5_row x0 x1 _ (⟨129 + (i 0).val - 128, by omega⟩ : Fin 8192)
        (by show 129 + (i 0).val - 128 = (i 0).val - 0 + 1; omega)]
  · rw [scatter8191_outside (FloatOps.addf (F := Ideal) (φ := .f32)) acc _ _ 0 (by omega) hidx i hi,
      Cert.Banded.add_term_outside x0 x1 (5 : Fin 9) 129 (i 0) (i 1) (by omega)]

/-- Step 6 (the diagonal at offset 8: rows 0 to 8183). -/
theorem step6 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8184x4096_01_n_0_0 (FloatOps.addf (F := Ideal) (φ := .f32)) acc (val_main_v53 (F := Ideal))
        (val_main_v52 (F := Ideal) x0 x1) : (⟨S8192x4096, .f32⟩ : BufTy).Contents (Elt Ideal)) i
      = acc i + Cert.Banded.term x0 x1 (6 : Fin 9) 136 (i 0) (i 1) := by
  have hidx : ∀ k : S1.Idx, (val_main_v53 (F := Ideal) k).toInt = ((0 : Nat) : Int) := by
    intro k; rw [val_main_v53_apply, val_main_c_5_apply]; decide
  have h0 := idx2_lt0 i
  by_cases hi : 0 ≤ (i 0).val ∧ (i 0).val < 0 + 8184
  · rw [scatter8184_inside (FloatOps.addf (F := Ideal) (φ := .f32)) acc _ _ 0 (by omega) hidx i hi, Ideal.addf_def,
      Cert.Banded.term_inside x0 x1 (6 : Fin 9) 136 (i 0) (i 1) (by omega),
      upd6_row x0 x1 _ (⟨136 + (i 0).val - 128, by omega⟩ : Fin 8192)
        (by show 136 + (i 0).val - 128 = (i 0).val - 0 + 8; omega)]
  · rw [scatter8184_outside (FloatOps.addf (F := Ideal) (φ := .f32)) acc _ _ 0 (by omega) hidx i hi,
      Cert.Banded.add_term_outside x0 x1 (6 : Fin 9) 136 (i 0) (i 1) (by omega)]

/-- Step 7 (the diagonal at offset 64: rows 0 to 8127). -/
theorem step7 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8128x4096_01_n_0_0 (FloatOps.addf (F := Ideal) (φ := .f32)) acc (val_main_v61 (F := Ideal))
        (val_main_v60 (F := Ideal) x0 x1) : (⟨S8192x4096, .f32⟩ : BufTy).Contents (Elt Ideal)) i
      = acc i + Cert.Banded.term x0 x1 (7 : Fin 9) 192 (i 0) (i 1) := by
  have hidx : ∀ k : S1.Idx, (val_main_v61 (F := Ideal) k).toInt = ((0 : Nat) : Int) := by
    intro k; rw [val_main_v61_apply, val_main_c_6_apply]; decide
  have h0 := idx2_lt0 i
  by_cases hi : 0 ≤ (i 0).val ∧ (i 0).val < 0 + 8128
  · rw [scatter8128_inside (FloatOps.addf (F := Ideal) (φ := .f32)) acc _ _ 0 (by omega) hidx i hi, Ideal.addf_def,
      Cert.Banded.term_inside x0 x1 (7 : Fin 9) 192 (i 0) (i 1) (by omega),
      upd7_row x0 x1 _ (⟨192 + (i 0).val - 128, by omega⟩ : Fin 8192)
        (by show 192 + (i 0).val - 128 = (i 0).val - 0 + 64; omega)]
  · rw [scatter8128_outside (FloatOps.addf (F := Ideal) (φ := .f32)) acc _ _ 0 (by omega) hidx i hi,
      Cert.Banded.add_term_outside x0 x1 (7 : Fin 9) 192 (i 0) (i 1) (by omega)]

/-- Step 8 (the diagonal at offset 128: rows 0 to 8063). -/
theorem step8 (x0 : (⟨S9x8192, .f32⟩ : BufTy).Contents (Elt Ideal)) (x1 : (⟨S8192x4096, .f32⟩ : BufTy).Contents (Elt Ideal))
    (acc : (⟨S8192x4096, .f32⟩ : BufTy).Contents (Elt Ideal)) (i : S8192x4096.Idx) :
    (Host.scatter scatter_S8192x4096_S1_S8064x4096_01_n_0_0 (FloatOps.addf (F := Ideal) (φ := .f32)) acc (val_main_v69 (F := Ideal))
        (val_main_v68 (F := Ideal) x0 x1) : (⟨S8192x4096, .f32⟩ : BufTy).Contents (Elt Ideal)) i
      = acc i + Cert.Banded.term x0 x1 (8 : Fin 9) 256 (i 0) (i 1) := by
  have hidx : ∀ k : S1.Idx, (val_main_v69 (F := Ideal) k).toInt = ((0 : Nat) : Int) := by
    intro k; rw [val_main_v69_apply, val_main_c_7_apply]; decide
  have h0 := idx2_lt0 i
  by_cases hi : 0 ≤ (i 0).val ∧ (i 0).val < 0 + 8064
  · rw [scatter8064_inside (FloatOps.addf (F := Ideal) (φ := .f32)) acc _ _ 0 (by omega) hidx i hi, Ideal.addf_def,
      Cert.Banded.term_inside x0 x1 (8 : Fin 9) 256 (i 0) (i 1) (by omega),
      upd8_row x0 x1 _ (⟨256 + (i 0).val - 128, by omega⟩ : Fin 8192)
        (by show 256 + (i 0).val - 128 = (i 0).val - 0 + 128; omega)]
  · rw [scatter8064_outside (FloatOps.addf (F := Ideal) (φ := .f32)) acc _ _ 0 (by omega) hidx i hi,
      Cert.Banded.add_term_outside x0 x1 (8 : Fin 9) 256 (i 0) (i 1) (by omega)]

end Cert.ReferenceIdeal.RefValue
-- ==== Proof.RefProd.lean ====
/-
  The reference program's value: the banded product.

  The program's result is the last of nine scatters, each applied to the one before and the first to an array of zeros.
  Read at an entry, each scatter adds one diagonal's contribution to the entry of the array it was applied to, so the
  result's entry is zero plus the nine contributions in the order of the diagonals: the banded product's entry.
-/
import proofs.«149076_j76501957477134_2_alg».proof.Proof.RefSteps
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/-- The reference program's result is the banded product of its two arguments. -/
theorem result_eq (x0 : (⟨S9x8192, .f32⟩ : BufTy).Contents (Elt Ideal)) (x1 : (⟨S8192x4096, .f32⟩ : BufTy).Contents (Elt Ideal)) :
    Cert.ReferenceIdeal.ReadP.val_main_v70 (F := Ideal) x0 x1 = Cert.Banded.prod x0 x1 := by
  funext i
  unfold val_main_v70
  rewrite [step8]
  unfold val_main_v62
  rewrite [step7]
  unfold val_main_v54
  rewrite [step6]
  unfold val_main_v46
  rewrite [step5]
  unfold val_main_v38
  rewrite [step4]
  unfold val_main_v32
  rewrite [step3]
  unfold val_main_v24
  rewrite [step2]
  unfold val_main_v16
  rewrite [step1]
  unfold val_main_v8
  rewrite [step0]
  rewrite [val_main_v0_apply, val_main_cst_apply, Ideal.ofBits_def, Ideal.ofBits_zero_f32]
  rfl

end Cert.ReferenceIdeal.RefValue
-- ==== Proof.KernelLayout.lean ====
/-
  The two zero extensions of the kernel's program, read at an index.

  The dense operand's block of 8192 rows is extended inside the kernel body by 128 rows of zeros above and below
  (a concatenation along the rows): row `r` of the extended block is row `r - 128` of the block for
  `128 ≤ r < 8320` and zero otherwise. The diagonals table is transposed and extended in the same way before the
  kernel is launched (a transpose, then a pad of 128 rows of the padding value on either side, the padding value
  being the integer zero converted to a float): entry `(r, k)` of the extended table is entry `(k, r - 128)` of the
  table for `128 ≤ r < 8320` and zero otherwise — `Cert.Banded.diagPad`.
-/
import proofs.«149076_j76501957477134_2_alg».proof.Proof.Gen.KernelIdeal.Skeleton
import proofs.«149076_j76501957477134_2_alg».proof.Proof.Spec
import Idealize.ShloMosaic.Lib.Pipeline.Value
import Idealize.ShloMosaic.Lib.KernelVsHost
import Idealize.ShloMosaic.Lib.ValueIdx

noncomputable section

namespace Cert.KernelIdeal.Band

open Cert.KernelIdeal Idealize.ShloMosaic Idealize.ShloMosaic.ValueIdx

variable [Facts]

/-- The block extended by 128 zero rows on either side, at row `r` and column `c`. -/
theorem extended_block_apply (P1 : Vec Ideal S8192x128 .f32) (r : Fin 8448) (c : Fin 128) :
    Gen.k0_pay2 (F := Ideal) P1 (ix2 r c)
      = if h : 128 ≤ r.val ∧ r.val < 8320 then P1 (ix2 (⟨r.val - 128, by omega⟩ : Fin 8192) c) else 0 := by
  have hr := r.isLt
  unfold Gen.k0_pay2
  by_cases h : 128 ≤ r.val ∧ r.val < 8320
  · rw [dif_pos h]
    exact concatenate_apply_piece (0 : Fin 2) _ _ (ix2 r c) 1 (by show 1 < 3; decide) S8192x128 P1 rfl rfl 128 rfl
      (ix2 (⟨r.val - 128, by omega⟩ : Fin 8192) c)
      (fun b hb => match b, hb with
        | ⟨0, _⟩, hb => absurd rfl hb
        | ⟨1, _⟩, _ => rfl)
      (by show 128 + (r.val - 128) = r.val; omega)
  · rw [dif_neg h]
    by_cases h0 : r.val < 128
    · refine (concatenate_apply_piece (0 : Fin 2) _ _ (ix2 r c) 0 (by show 0 < 3; decide) S128x128 _ rfl rfl 0 rfl
        (ix2 (⟨r.val, h0⟩ : Fin 128) c)
        (fun b hb => match b, hb with
          | ⟨0, _⟩, hb => absurd rfl hb
          | ⟨1, _⟩, _ => rfl)
        (by show 0 + r.val = r.val; omega)).trans ?_
      exact Ideal.ofBits_zero_f32
    · refine (concatenate_apply_piece (0 : Fin 2) _ _ (ix2 r c) 2 (by show 2 < 3; decide) S128x128 _ rfl rfl 8320 rfl
        (ix2 (⟨r.val - 8320, by omega⟩ : Fin 128) c)
        (fun b hb => match b, hb with
          | ⟨0, _⟩, hb => absurd rfl hb
          | ⟨1, _⟩, _ => rfl)
        (by show 8320 + (r.val - 8320) = r.val; omega)).trans ?_
      exact Ideal.ofBits_zero_f32

/-- The transposed table extended by 128 rows of the padding value on either side, at row `r` and column `k`. -/
theorem extended_table_apply (x : Vec Ideal S9x8192 .f32) (r : Fin 8448) (k : Fin 9) :
    pad S8448x9 ![128, 0] ![128, 0] ![0, 0] (transpose S8192x9 [1, 0] x Facts₀.transposes_S9x8192_S8192x9_1_0)
        (sitofp (F := Ideal) .f32 (constantI S_ 32 0#32)) Facts₀.pads_S8192x9_S8448x9_1281280_000 Facts₀.h_S_ (ix2 r k)
      = Cert.Banded.diagPad x k r.val := by
  have hr := r.isLt
  unfold Cert.Banded.diagPad
  by_cases h : 128 ≤ r.val ∧ r.val < 8320
  · rw [dif_pos h]
    refine (pad_apply_of_inside _ _ _ _ _ _ _ (ix2 r k) (ix2 (⟨r.val - 128, by omega⟩ : Fin 8192) k)
      (fun a => match a with
        | ⟨0, _⟩ => by show r.val = 128 + (r.val - 128) * (0 + 1); omega
        | ⟨1, _⟩ => by show k.val = 0 + k.val * (0 + 1); omega)).trans ?_
    exact transpose_apply [1, 0] x _ (ix2 (⟨r.val - 128, by omega⟩ : Fin 8192) k) (ix2 k (⟨r.val - 128, by omega⟩ : Fin 8192))
      (fun b => match b with
        | ⟨0, _⟩ => rfl
        | ⟨1, _⟩ => rfl)
  · rw [dif_neg h]
    refine (pad_apply_of_not_inside _ _ _ _ _ _ _ (ix2 r k) (0 : Fin 2)
      (by show ¬(128 ≤ r.val ∧ (r.val - 128) % (0 + 1) = 0 ∧ (r.val - 128) / (0 + 1) < 8192); omega)).trans ?_
    show (((0#32 : BitVec 32).toInt : ℝ) : EReal) = 0
    simp

end Cert.KernelIdeal.Band

end
-- ==== Proof.KernelPoint.lean ====
/-
  What one grid point leaves in its output block, index by index.

  At a grid point the body holds the whole extended diagonals table `x0` (8448 × 9) and one block `x1` of 128 columns
  of the dense operand (8192 × 128). It extends the block by 128 zero rows on either side and, for each diagonal `k`
  with padded offset `s k`, multiplies column `k` of the table, rows `s k … s k + 8191`, into rows
  `s k … s k + 8191` of the extended block, adding the nine products to zero in the order of `k`. When the table is
  the zero extension of `d` and the block is columns `128 q … 128 q + 127` of `o`, entry `(p, c)` of the result is
  entry `(p, 128 q + c)` of the banded product `Cert.Banded.prod d o`: term by term the two sides are the same
  product of a padded table entry and a padded operand entry.
-/
import proofs.«149076_j76501957477134_2_alg».proof.Proof.Gen.KernelIdeal.Value
import proofs.«149076_j76501957477134_2_alg».proof.Proof.KernelLayout

noncomputable section

namespace Cert.KernelIdeal.Band

open Cert.KernelIdeal Cert.KernelIdeal.Gen Idealize.ShloMosaic Idealize.ShloMosaic.ValueIdx

variable [Facts]

/-- Column `128 q + c` of the dense operand is inside it. -/
theorem col_lt (q : Fin 32) (c : Fin 128) : 128 * q.val + c.val < 4096 := by omega

/-- Row `p + s` of an extended operand is inside it when the padded offset `s` is at most 256. -/
theorem row_lt (s : ℕ) (hs : s + 8192 ≤ 8448) (p : Fin 8192) : p.val + s < 8448 := by omega

/-- A column of the extended table loaded at row offset `s` and column `k`, read at row `p`. -/
theorem load_table_column (d : Vec Ideal S9x8192 .f32) (x0 : Vec Ideal S8448x9 .f32)
    (h0 : ∀ (r : Fin 8448) (k : Fin 9), x0 (ix2 r k) = Cert.Banded.diagPad d k r.val)
    (s k : ℕ) (hs : s + 8192 ≤ 8448) (hk : k < 9)
    (inb : ∀ a, (![s, k] : Fin 2 → ℕ) a + S8192x1.size a ≤ S8448x9.size a) (z : S8192x1.Idx) (p : Fin 8192)
    (hz : (z 0).val = p.val) :
    View.ld x0 (Rect.unit (s := S8448x9) ![s, k] S8192x1.size inb) z = Cert.Banded.diagPad d ⟨k, hk⟩ (s + p.val) := by
  have hp := p.isLt
  have hz1 : (z 1).val < 1 := (z 1).isLt
  rw [show Cert.Banded.diagPad d ⟨k, hk⟩ (s + p.val) = x0 (ix2 (⟨s + p.val, by omega⟩ : Fin 8448) (⟨k, hk⟩ : Fin 9)) from
    (h0 ⟨s + p.val, by omega⟩ ⟨k, hk⟩).symm]
  show x0 ((Rect.unit (s := S8448x9) ![s, k] S8192x1.size inb).emb z) = _
  refine congrArg x0 (funext fun a => Fin.ext ?_)
  match a with
  | ⟨0, _⟩ => show s + 1 * (z 0).val = s + p.val; omega
  | ⟨1, _⟩ => show k + 1 * (z 1).val = k; omega

/-- The extended block read at row `p + s` and column `c`, when the block is columns `128 q …` of `o`. -/
theorem extended_block_of_columns (o : Vec Ideal S8192x4096 .f32) (x1 : Vec Ideal S8192x128 .f32) (q : Fin 32)
    (h1 : ∀ (r : Fin 8192) (c : Fin 128), x1 (ix2 r c) = o (ix2 r (⟨128 * q.val + c.val, by omega⟩ : Fin 4096)))
    (z : S8448x128.Idx) (s : ℕ) (hs : s + 8192 ≤ 8448) (p : Fin 8192) (c : Fin 128)
    (hz0 : (z 0).val = p.val + s) (hz1 : (z 1).val = c.val) :
    k0_pay2 (F := Ideal) (View.ld x1 r0_0) z
      = Cert.Banded.densePad o (s + p.val) (⟨128 * q.val + c.val, col_lt q c⟩ : Fin 4096) := by
  have hp := p.isLt
  have ez : z = ix2 (⟨p.val + s, row_lt s hs p⟩ : Fin 8448) c := by
    funext a; apply Fin.ext
    match a with
    | ⟨0, _⟩ => exact hz0
    | ⟨1, _⟩ => exact hz1
  subst ez
  rw [extended_block_apply]
  unfold Cert.Banded.densePad
  by_cases h : 128 ≤ s + p.val ∧ s + p.val < 8320
  · rw [dif_pos h, dif_pos (show 128 ≤ p.val + s ∧ p.val + s < 8320 by omega)]
    rw [View.ld_unit_zero (S := S8192x128) (funext fun a => by match a with | ⟨0, _⟩ => rfl | ⟨1, _⟩ => rfl), h1]
    refine congrArg o (funext fun a => Fin.ext ?_)
    match a with
    | ⟨0, _⟩ => show p.val + s - 128 = s + p.val - 128; omega
    | ⟨1, _⟩ => rfl
  · rw [dif_neg h, dif_neg (show ¬(128 ≤ p.val + s ∧ p.val + s < 8320) by omega)]

/-- Entry `(p, c)` of the block a grid point leaves is entry `(p, 128 q + c)` of the banded product. -/
theorem point_eq (d : Vec Ideal S9x8192 .f32) (o : Vec Ideal S8192x4096 .f32)
    (x0 : Vec Ideal S8448x9 .f32) (x1 : Vec Ideal S8192x128 .f32) (q : Fin 32)
    (h0 : ∀ (r : Fin 8448) (k : Fin 9), x0 (ix2 r k) = Cert.Banded.diagPad d k r.val)
    (h1 : ∀ (r : Fin 8192) (c : Fin 128), x1 (ix2 r c) = o (ix2 r (⟨128 * q.val + c.val, by omega⟩ : Fin 4096)))
    (p : Fin 8192) (c : Fin 128) :
    Value.E2 (F := Ideal) (View.ld x0 r0_1) (View.ld x1 r0_0) (View.ld x0 r0_2) (View.ld x0 r0_3) (View.ld x0 r0_4)
        (View.ld x0 r0_5) (View.ld x0 r0_6) (View.ld x0 r0_7) (View.ld x0 r0_8) (View.ld x0 r0_9) (ix2 p c)
      = Cert.Banded.prod d o (ix2 p (⟨128 * q.val + c.val, col_lt q c⟩ : Fin 4096)) := by
  unfold Value.E2
  rw [load_table_column d x0 h0 0 0 (by omega) (by omega) _ (Value.ix2_0 (ix2 p c)) p rfl,
    load_table_column d x0 h0 64 1 (by omega) (by omega) _ (Value.ix2_2 (ix2 p c)) p rfl,
    load_table_column d x0 h0 120 2 (by omega) (by omega) _ (Value.ix2_4 (ix2 p c)) p rfl,
    load_table_column d x0 h0 127 3 (by omega) (by omega) _ (Value.ix2_6 (ix2 p c)) p rfl,
    load_table_column d x0 h0 128 4 (by omega) (by omega) _ (Value.ix2_8 (ix2 p c)) p rfl,
    load_table_column d x0 h0 129 5 (by omega) (by omega) _ (Value.ix2_10 (ix2 p c)) p rfl,
    load_table_column d x0 h0 136 6 (by omega) (by omega) _ (Value.ix2_12 (ix2 p c)) p rfl,
    load_table_column d x0 h0 192 7 (by omega) (by omega) _ (Value.ix2_14 (ix2 p c)) p rfl,
    load_table_column d x0 h0 256 8 (by omega) (by omega) _ (Value.ix2_16 (ix2 p c)) p rfl]
  rw [extended_block_of_columns o x1 q h1 (Value.ix2_1 (ix2 p c)) 0 (by omega) p c rfl rfl,
    extended_block_of_columns o x1 q h1 (Value.ix2_3 (ix2 p c)) 64 (by omega) p c rfl rfl,
    extended_block_of_columns o x1 q h1 (Value.ix2_5 (ix2 p c)) 120 (by omega) p c rfl rfl,
    extended_block_of_columns o x1 q h1 (Value.ix2_7 (ix2 p c)) 127 (by omega) p c rfl rfl,
    extended_block_of_columns o x1 q h1 (Value.ix2_9 (ix2 p c)) 128 (by omega) p c rfl rfl,
    extended_block_of_columns o x1 q h1 (Value.ix2_11 (ix2 p c)) 129 (by omega) p c rfl rfl,
    extended_block_of_columns o x1 q h1 (Value.ix2_13 (ix2 p c)) 136 (by omega) p c rfl rfl,
    extended_block_of_columns o x1 q h1 (Value.ix2_15 (ix2 p c)) 192 (by omega) p c rfl rfl,
    extended_block_of_columns o x1 q h1 (Value.ix2_17 (ix2 p c)) 256 (by omega) p c rfl rfl]
  unfold Cert.Banded.prod Cert.Banded.term
  simp only [Ideal.addf_def, Ideal.mulf_def]
  rw [show (Scalar.ofBits (F := Ideal) .f32 0x00000000#32 : EReal) = 0 from Ideal.ofBits_zero_f32]
  rfl

end Cert.KernelIdeal.Band

end
-- ==== Proof.KernelArray.lean ====
/-
  The kernel's result array is the banded product.

  The grid has 32 points; point `t` holds the whole extended diagonals table and columns `128 t … 128 t + 127` of the
  dense operand, and writes back columns `128 t … 128 t + 127` of the result, all 8192 rows. The table the region finds
  is the transposed diagonals table extended by 128 zero rows on either side, so what point `t` writes back is block
  `t` of the banded product (`Band.point_eq` at the point's blocks); the 32 column blocks tile the array (the point
  covering column `j` is `j / 128`), so the array ends holding the banded product of the two argument arrays.
-/
import proofs.«149076_j76501957477134_2_alg».proof.Proof.Gen.KernelIdeal.Value
import proofs.«149076_j76501957477134_2_alg».proof.Proof.KernelPoint
import Idealize.ShloMosaic.Lib.StableHlo.Run

set_option maxRecDepth 16384

noncomputable section

namespace Cert.KernelIdeal.Band

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The table the region finds: the first argument transposed, then extended by 128 rows of the converted integer
    zero on either side. -/
theorem table_eq (c : Dev nD) :
    (V m c main_v1 : S8448x9.Idx → EReal)
      = pad S8448x9 ![128, 0] ![128, 0] ![0, 0]
          (transpose S8192x9 [1, 0] (m ((c : Thread nD τ).loc main_arg0)) Facts₀.transposes_S9x8192_S8192x9_1_0)
          (sitofp (F := Ideal) .f32 (constantI S_ 32 0#32)) Facts₀.pads_S8192x9_S8448x9_1281280_000 Facts₀.h_S_ := by
  dsimp only [Gen.V]
  simp only [Gen.hostOps0, Gen.hostOps0_1, List.flatten_cons, List.flatten_nil, List.append_nil, List.cons_append,
    List.nil_append]
  after_results
  rfl

/-- The printed index maps over the 32 points: the table's window stays at block (0, 0); the dense operand's and the
    result's windows are at block (0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The table's block at any point is the whole extended table. -/
theorem table_block (c : Dev nD) (t : Fin cfg0.N) (r : Fin 8448) (k : Fin 9) :
    (iblk m c 0 t : Vec Ideal S8448x9 .f32) (ix2 r k) = Cert.Banded.diagPad (m ((c : Thread nD τ).loc main_arg0)) k r.val := by
  obtain ⟨e0, e1, -⟩ := idx_facts t
  show V m c main_v1 (((cfg0.win 0).blk t).view.emb (ix2 r k)) = _
  have he : ((cfg0.win 0).blk t).view.emb (ix2 r k) = ix2 r k := by
    funext a; apply Fin.ext
    match a with
    | ⟨0, _⟩ => show win0_0.index t (0 : Fin 2) * 8448 + 1 * r.val = r.val; omega
    | ⟨1, _⟩ => show win0_0.index t (1 : Fin 2) * 9 + 1 * k.val = k.val; omega
  rw [he, table_eq, extended_table_apply]

/-- The dense operand's block at point `t` is its columns `128 t … 128 t + 127`. -/
theorem dense_block (c : Dev nD) (t : Fin cfg0.N) (ht : t.val < 32) (r : Fin 8192) (cc : Fin 128) :
    (iblk m c 1 t : Vec Ideal S8192x128 .f32) (ix2 r cc)
      = m ((c : Thread nD τ).loc main_arg1) (ix2 r (⟨128 * (⟨t.val, ht⟩ : Fin 32).val + cc.val, by omega⟩ : Fin 4096)) := by
  obtain ⟨-, -, e2, e3, -⟩ := idx_facts t
  show V m c main_arg1 (((cfg0.win 1).blk t).view.emb (ix2 r cc)) = _
  rw [V_main_arg1]
  refine congrArg _ (funext fun a => Fin.ext ?_)
  match a with
  | ⟨0, _⟩ => show win0_1.index t (0 : Fin 2) * 8192 + 1 * r.val = r.val; omega
  | ⟨1, _⟩ => show win0_1.index t (1 : Fin 2) * 128 + 1 * cc.val = 128 * t.val + cc.val; omega

/-- The block a point leaves, over variables: entry `y` is entry `(y 0, 128 q + y 1)` of the banded product. -/
theorem out_block_eq (d : Vec Ideal S9x8192 .f32) (o : Vec Ideal S8192x4096 .f32)
    (x0 : Vec Ideal S8448x9 .f32) (x1 : Vec Ideal S8192x128 .f32) (q : Fin 32)
    (h0 : ∀ (r : Fin 8448) (k : Fin 9), x0 (ix2 r k) = Cert.Banded.diagPad d k r.val)
    (h1 : ∀ (r : Fin 8192) (c : Fin 128), x1 (ix2 r c) = o (ix2 r (⟨128 * q.val + c.val, by omega⟩ : Fin 4096)))
    (y : S8192x128.Idx) :
    out0_2 (F := Ideal) x0 x1 y
      = Cert.Banded.prod d o (ix2 (⟨(y 0).val, (y 0).isLt⟩ : Fin 8192)
          (⟨128 * q.val + (⟨(y 1).val, (y 1).isLt⟩ : Fin 128).val, col_lt q _⟩ : Fin 4096)) := by
  unfold out0_2
  rw [Value.canon2_eq]
  have hy : ix2 (⟨(y 0).val, (y 0).isLt⟩ : Fin 8192) (⟨(y 1).val, (y 1).isLt⟩ : Fin 128) = y :=
    funext fun a => match a with | ⟨0, _⟩ => rfl | ⟨1, _⟩ => rfl
  have key := point_eq d o x0 x1 q h0 h1 ⟨(y 0).val, (y 0).isLt⟩ ⟨(y 1).val, (y 1).isLt⟩
  rw [hy] at key
  exact key

/-- What point `t` writes back is block `t` of the banded product of the argument arrays. -/
theorem flushed_eq (c : Dev nD) (t : Fin cfg0.N) :
    (dats m 0 c).flushed 2 t = ((cfg0.win 2).blk t).view.read (Elt Ideal)
      (Cert.Banded.prod (m ((c : Thread nD τ).loc main_arg0)) (m ((c : Thread nD τ).loc main_arg1))) := by
  rw [Value.flushed2]
  have ht : t.val < 32 := t.isLt
  obtain ⟨-, -, -, -, e4, e5⟩ := idx_facts t
  funext j
  show out0_2 (iblk m c 0 t) (iblk m c 1 t) j
    = Cert.Banded.prod (m ((c : Thread nD τ).loc main_arg0)) (m ((c : Thread nD τ).loc main_arg1)) (((cfg0.win 2).blk t).view.emb j)
  refine (out_block_eq (m ((c : Thread nD τ).loc main_arg0)) (m ((c : Thread nD τ).loc main_arg1)) (iblk m c 0 t) (iblk m c 1 t)
    ⟨t.val, ht⟩ (table_block m c t) (dense_block m c t ht) j).trans ?_
  refine congrArg _ (funext fun a => Fin.ext ?_)
  match a with
  | ⟨0, _⟩ => show (j 0).val = win0_2.index t (0 : Fin 2) * 8192 + 1 * (j 0).val; omega
  | ⟨1, _⟩ => show 128 * t.val + (j 1).val = win0_2.index t (1 : Fin 2) * 128 + 1 * (j 1).val; omega

/-- An index of the array is in point `t`'s block iff each coordinate is in the block's range on its axis. -/
theorem mem_blk (t : Fin cfg0.N) (i : S8192x4096.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v2).slice (win0_2.rect t)).set ↔ _
  rw [View.set_slice_whole, Rect.mem_set_unit]
  exact Iff.rfl

/-- The 32 column blocks tile the array: column `j` is in the block of point `j / 128`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : (i 1).val / 128 < 32 := by omega
  refine ⟨⟨(i 1).val / 128, hlt⟩, flush0_2 _, ?_⟩
  obtain ⟨-, -, -, -, e4, e5⟩ := idx_facts ⟨(i 1).val / 128, hlt⟩
  have e5' : win0_2.index ⟨(i 1).val / 128, hlt⟩ (1 : Fin 2) = (i 1).val / 128 := e5
  rw [mem_blk]
  intro a
  match a with
  | ⟨0, _⟩ =>
    show win0_2.index ⟨(i 1).val / 128, hlt⟩ (0 : Fin 2) * 8192 ≤ (i 0).val
      ∧ (i 0).val < win0_2.index ⟨(i 1).val / 128, hlt⟩ (0 : Fin 2) * 8192 + 8192
    omega
  | ⟨1, _⟩ =>
    show win0_2.index ⟨(i 1).val / 128, hlt⟩ (1 : Fin 2) * 128 ≤ (i 1).val
      ∧ (i 1).val < win0_2.index ⟨(i 1).val / 128, hlt⟩ (1 : Fin 2) * 128 + 128
    omega

/-- The result array after the run is the banded product of the argument arrays. -/
theorem final (c : Dev nD) :
    (dats m 0 c).arrAt 2 cfg0.N
      = Cert.Banded.prod (m ((c : Thread nD τ).loc main_arg0)) (m ((c : Thread nD τ).loc main_arg1)) :=
  (dats m 0 c).arrAt_eq_of_cover 2 _ (fun t _ => flushed_eq m c t) cover

/-- The kernel's run: it terminates with the result array at the banded product and the arguments unchanged. -/
theorem run : θ_run defs (onTc (τ := τ) (main (F := Ideal))) ⟨m, fun _ => 0, ρ⟩ fun r => ∀ c : Dev nD,
      r.2.mem ((c : Thread nD τ).loc main_v2)
        = Cert.Banded.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Band

end
-- ==== Proof.lean ====
/-
  The kernel multiplies a band matrix with nine diagonals (offsets -128, -64, -8, -1, 0, 1, 8, 64, 128), stored as a
  9 × 8192 table of its diagonals, into a dense 8192 × 4096 matrix; the reference is the same product written as nine
  row-window updates of an array of zeros. Both are read at `Ideal` (floats are extended reals, every operation exact)
  as ONE function of the two arguments, `Cert.Banded.prod` (Proof/Spec.lean): entry `(i, c)` is zero plus the nine
  contributions `d (k, i + off k) · o (i + off k, c)`, in the order of the diagonals, a contribution whose row
  `i + off k` falls outside `[0, 8192)` being zero.

  * The kernel pads the transposed table and each column block of the dense operand by 128 zero rows on either side and
    adds nine shifted products; each of its 32 grid points writes 128 columns of the result. Its result array is the
    banded product: Proof/KernelLayout.lean (the two zero extensions read at an index), Proof/KernelPoint.lean (what
    one grid point leaves), Proof/KernelArray.lean (the blocks tile the array; the run), over the generated frame run
    and value leg.
  * The reference's nine scatters each add one diagonal's contribution on the rows its window covers and leave the other
    rows alone; a padded contribution is `0 · 0 = 0` and `x + 0 = x` on every extended real, so no finiteness of the
    inputs is used: Proof/LibScatterRead.lean and Proof/ScatterWindow.lean (a scatter of one window read at an index),
    Proof/RefSteps.lean (the nine steps), Proof/RefProd.lean (the result), over the reference's run
    (Proof/RefRun.lean, Proof/RefRead.lean).
  The three frames are the programs' runs with the results dropped; the idealization rewrote nothing, so `preserves`
  is trivial.
-/
import proofs.«149076_j76501957477134_2_alg».proof.Defs
import proofs.«149076_j76501957477134_2_alg».proof.Proof.Gen.Kernel
import proofs.«149076_j76501957477134_2_alg».proof.Proof.Gen.Kernel.Frame
import proofs.«149076_j76501957477134_2_alg».proof.Proof.Gen.KernelIdeal
import proofs.«149076_j76501957477134_2_alg».proof.Proof.Gen.KernelIdeal.Frame
import proofs.«149076_j76501957477134_2_alg».proof.Proof.Gen.KernelIdeal.Value
import proofs.«149076_j76501957477134_2_alg».proof.Proof.Gen.ReferenceIdeal
import proofs.«149076_j76501957477134_2_alg».proof.Proof.Gen.Pre_finite_inputs
import proofs.«149076_j76501957477134_2_alg».proof.Proof.RefRun
import proofs.«149076_j76501957477134_2_alg».proof.Proof.RefRead
import proofs.«149076_j76501957477134_2_alg».proof.Proof.RefProd
import proofs.«149076_j76501957477134_2_alg».proof.Proof.KernelArray

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the banded product of the arguments: the kernel's result array by
    `Cert.KernelIdeal.Band.run`, the reference's by its run and `Cert.ReferenceIdeal.RefValue.result_eq`, the two
    memories agreeing on the arguments. -/
theorem algebraic : Cert.algebraic_KernelIdeal_ReferenceIdeal := by
  intro m ρ m' ρ' _ hagree
  refine ⟨_, Cert.KernelIdeal.Band.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v70_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
